-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x12 : Shape := ⟨2, ![256, 12]⟩
abbrev S12 : Shape := ⟨1, ![12]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x12 : S_.BroadcastsInDim S256x12 (![] : Fin 0 → Fin S256x12.rank)
  reducesTo_S256x12_S_d0_1 : S256x12.ReducesTo [0, 1] S_
  bcast_S_S12 : S_.BroadcastsInDim S12 (![] : Fin 0 → Fin S12.rank)
  reducesTo_S12_S_d0 : S12.ReducesTo [0] S_

variable [Facts]

def fn_part3 {F : FTy → Type} [FloatOps F] (main_arg13 : FVec F S256x12 .f32) (main_arg14 : FVec F S12 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x12 .f32 := Host.absf main_arg13
  let main_cst_20 : FVec F S_ .f32 := constant S_ .f32 0x7F800000#32
  let main_v55 : FVec F S256x12 .f32 := broadcastInDim S256x12 ![] bcast_S_S256x12 main_cst_20
  let main_v56 : IVec S256x12 1 := cmpf .olt main_v54 main_v55
  let main_c_21 : IVec S_ 1 := constantI S_ 1 1#1
  let main_v57 : IVec S_ 1 := (fun x v => Host.reduce IntOp.andi x v reducesTo_S256x12_S_d0_1 h_S_) main_v56 main_c_21
  let main_v58 : IVec S_ 1 := andi main_v53 main_v57
  let main_v59 : FVec F S12 .f32 := Host.absf main_arg14
  let main_cst_22 : FVec F S_ .f32 := constant S_ .f32 0x7F800000#32
  let main_v60 : FVec F S12 .f32 := broadcastInDim S12 ![] bcast_S_S12 main_cst_22
  let main_v61 : IVec S12 1 := cmpf .olt main_v59 main_v60
  let main_c_23 : IVec S_ 1 := constantI S_ 1 1#1
  let main_v62 : IVec S_ 1 := (fun x v => Host.reduce IntOp.andi x v reducesTo_S12_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x256 .f32) (main_arg12 : FVec F S256 .f32) (main_arg13 : FVec F S256x12 .f32) (main_arg14 : FVec F S12 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x256 .f32) (main_arg12 : FVec F S256 .f32) (main_arg13 : FVec F S256x12 .f32) (main_arg14 : FVec F S12 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x400000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x256 .f32) (main_arg12 : FVec F S256 .f32) (main_arg13 : FVec F S256x12 .f32) (main_arg14 : FVec F S12 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x400000 : Shape := ⟨2, ![2, 400000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x12 : Shape := ⟨2, ![256, 12]⟩
abbrev S12 : Shape := ⟨1, ![12]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x1 : Shape := ⟨2, ![100000, 1]⟩
abbrev S1x128 : Shape := ⟨2, ![1, 128]⟩
abbrev S10000x128 : Shape := ⟨2, ![10000, 128]⟩
abbrev S400000x128 : Shape := ⟨2, ![400000, 128]⟩
abbrev S10000x1 : Shape := ⟨2, ![10000, 1]⟩
abbrev S512x128 : Shape := ⟨2, ![512, 128]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S1x12 : Shape := ⟨2, ![1, 12]⟩
abbrev S512x12 : Shape := ⟨2, ![512, 12]⟩

abbrev nBuf : Space → Nat
  | .hbm => 116
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x12, .f32⟩
  | .hbm, ⟨14, _⟩ => ⟨S12, .f32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S_, .f32⟩
  | .hbm, ⟨20, _⟩ => ⟨S400000, .f32⟩
  | .hbm, ⟨21, _⟩ => ⟨S_, .f32⟩
  | .hbm, ⟨22, _⟩ => ⟨S100000, .f32⟩
  | .hbm, ⟨23, _⟩ => ⟨S400000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x128, .f32⟩
  | .hbm, ⟨43, _⟩ => ⟨S_, .f32⟩
  | .hbm, ⟨44, _⟩ => ⟨S100000x128, .f32⟩
  | .hbm, ⟨45, _⟩ => ⟨S400000x1, .i32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x128, .f32⟩
  | .hbm, ⟨59, _⟩ => ⟨S_, .f32⟩
  | .hbm, ⟨60, _⟩ => ⟨S100000x128, .f32⟩
  | .hbm, ⟨61, _⟩ => ⟨S400000x1, .i32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S400000, .i32⟩
  | .hbm, ⟨68, _⟩ => ⟨S400000, .i1⟩
  | .hbm, ⟨69, _⟩ => ⟨S_, .i32⟩
  | .hbm, ⟨70, _⟩ => ⟨S400000, .i32⟩
  | .hbm, ⟨71, _⟩ => ⟨S400000, .i32⟩
  | .hbm, ⟨72, _⟩ => ⟨S400000, .i32⟩
  | .hbm, ⟨73, _⟩ => ⟨S400000x1, .i32⟩
  | .hbm, ⟨74, _⟩ => ⟨S400000x128, .f32⟩
  | .hbm, ⟨75, _⟩ => ⟨S_, .f32⟩
  | .hbm, ⟨76, _⟩ => ⟨S100000x128, .f32⟩
  | .hbm, ⟨77, _⟩ => ⟨S400000x1, .i32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .i32⟩
  | .hbm, ⟨83, _⟩ => ⟨S400000, .i32⟩
  | .hbm, ⟨84, _⟩ => ⟨S400000, .i1⟩
  | .hbm, ⟨85, _⟩ => ⟨S_, .i32⟩
  | .hbm, ⟨86, _⟩ => ⟨S400000, .i32⟩
  | .hbm, ⟨87, _⟩ => ⟨S400000, .i32⟩
  | .hbm, ⟨88, _⟩ => ⟨S400000, .i32⟩
  | .hbm, ⟨89, _⟩ => ⟨S400000x1, .i32⟩
  | .hbm, ⟨90, _⟩ => ⟨S400000x128, .f32⟩
  | .hbm, ⟨91, _⟩ => ⟨S_, .f32⟩
  | .hbm, ⟨92, _⟩ => ⟨S100000x128, .f32⟩
  | .hbm, ⟨93, _⟩ => ⟨S400000x1, .i32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S512x128, .f32⟩
  | .hbm, ⟨98, _⟩ => ⟨S100000x1, .i32⟩
  | .hbm, ⟨99, _⟩ => ⟨S512x128, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S512, .f32⟩
  | .hbm, ⟨104, _⟩ => ⟨S100000x1, .i32⟩
  | .hbm, ⟨105, _⟩ => ⟨S512, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S512x1, .f32⟩
  | .hbm, ⟨110, _⟩ => ⟨S512x128, .f32⟩
  | .hbm, ⟨111, _⟩ => ⟨S512x128, .f32⟩
  | .hbm, ⟨112, _⟩ => ⟨S1x256, .f32⟩
  | .hbm, ⟨113, _⟩ => ⟨S512x256, .f32⟩
  | .hbm, ⟨114, _⟩ => ⟨S1x12, .f32⟩
  | .hbm, ⟨115, _⟩ => ⟨S512x12, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x1, .f32⟩
  | .local _ .vmem, ⟨21, _⟩ => ⟨S10000x1, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x1, .f32⟩
  | .local _ .vmem, ⟨33, _⟩ => ⟨S10000x1, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x1, .f32⟩
  | .local _ .vmem, ⟨45, _⟩ => ⟨S10000x1, .f32⟩
  | .local _ .vmem, ⟨46, _⟩ => ⟨S10000x128, .f32⟩
  | .local _ .vmem, ⟨47, _⟩ => ⟨S10000x128, .f32⟩
  | .local _ .vmem, ⟨48, _⟩ => ⟨S512x128, .f32⟩
  | .local _ .vmem, ⟨49, _⟩ => ⟨S128x256, .f32⟩
  | .local _ .vmem, ⟨50, _⟩ => ⟨S1x256, .f32⟩
  | .local _ .vmem, ⟨51, _⟩ => ⟨S512x256, .f32⟩
  | .local _ .vmem, ⟨52, _⟩ => ⟨S512x256, .f32⟩
  | .local _ .vmem, ⟨53, _⟩ => ⟨S256x12, .f32⟩
  | .local _ .vmem, ⟨54, _⟩ => ⟨S1x12, .f32⟩
  | .local _ .vmem, ⟨55, _⟩ => ⟨S512x12, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg3_0 : Ref sig .tc := ⟨.vmem, 51, rfl⟩
abbrev cc9_stg0_0 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg3_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem1_0 : DmaSem sig := 49
abbrev cc8_sem2_0 : DmaSem sig := 50
abbrev cc8_sem3_0 : DmaSem sig := 51
abbrev cc9_sem0_0 : DmaSem sig := 52
abbrev cc9_sem1_0 : DmaSem sig := 53
abbrev cc9_sem2_0 : DmaSem sig := 54
abbrev cc9_sem3_0 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S512x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S128x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S512x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S256x12 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x12 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x12 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S100000x128 : S_.BroadcastsInDim S100000x128 (![] : Fin 0 → Fin S100000x128.rank)
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S256_S1x256 : S256.ShapeCasts S1x256
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S12_S1x12 : S12.ShapeCasts S1x12
  shapeCasts_S512x256_S512x256 : S512x256.ShapeCasts S512x256
  inb_S256x12_S256x12_0_0 : ∀ a, (![0, 0] : Fin 2 → Nat) a + S256x12.size a ≤ S256x12.size a
  h_S256x12 : 0 < S256x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  inb_S512x12_S512x12_0_0 : ∀ a, (![0, 0] : Fin 2 → Nat) a + S512x12.size a ≤ S512x12.size a
  h_S512x12 : 0 < S512x12.numel
  scatter_S100000_S400000x1_S400000_n_0_0_1_wf : ScatterDims.WF S100000 S400000x1 S400000 [] [0] [0] 1
  dot_S10000x128_S128x128_S10000x128_1_0_0_1_n_n_wf : DotDims.WF S10000x128 S128x128 S10000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x256_S512x256_1_0_0_1_n_n_wf : DotDims.WF S512x128 S128x256 S512x256 [1] [0] [0] [1] [] []
  dot_S512x256_S256x12_S512x12_1_0_0_1_n_n_wf : DotDims.WF S512x256 S256x12 S512x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S100000x128.size a
  hwx4_3 : ∀ i : grid4.Coords, EltTy.bits .f32 = 32 ∨ (Rect.block (s := S100000x128) S10000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x128.size a ≤ S100000x128.size a
  hwx6_3 : ∀ i : grid6.Coords, EltTy.bits .f32 = 32 ∨ (Rect.block (s := S100000x128) S10000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S100000x1.size a
  hwx7_1 : ∀ i : grid7.Coords, EltTy.bits .f32 = 32 ∨ (Rect.block (s := S100000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S100000x128.size a
  hwx7_2 : ∀ i : grid7.Coords, EltTy.bits .f32 = 32 ∨ (Rect.block (s := S100000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S512x128.size a
  hwx8_0 : ∀ i : grid8.Coords, EltTy.bits .f32 = 32 ∨ (Rect.block (s := S512x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x256.size a ≤ S128x256.size a
  hwx8_1 : ∀ i : grid8.Coords, EltTy.bits .f32 = 32 ∨ (Rect.block (s := S128x256) S128x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S512x256.size a ≤ S512x256.size a
  hwx8_3 : ∀ i : grid8.Coords, EltTy.bits .f32 = 32 ∨ (Rect.block (s := S512x256) S512x256.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S512x256.size a ≤ S512x256.size a
  hwx9_0 : ∀ i : grid9.Coords, EltTy.bits .f32 = 32 ∨ (Rect.block (s := S512x256) S512x256.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x12.size a ≤ S256x12.size a
  hwx9_1 : ∀ i : grid9.Coords, EltTy.bits .f32 = 32 ∨ (Rect.block (s := S256x12) S256x12.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x12.size a ≤ S1x12.size a
  hwx9_2 : ∀ i : grid9.Coords, EltTy.bits .f32 = 32 ∨ (Rect.block (s := S1x12) S1x12.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S512x12.size a ≤ S512x12.size a
  hwx9_3 : ∀ i : grid9.Coords, EltTy.bits .f32 = 32 ∨ (Rect.block (s := S512x12) S512x12.size (cc9_transform_3 i) (hinb9_3 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x12_S512x12_1_0_0_1_n_n : DotDims S512x256 S256x12 S512x12 where
  lhsContracting := [1]
  rhsContracting := [0]
  lhsNonContracting := [0]
  rhsNonContracting := [1]
  lhsBatch := []
  rhsBatch := []
  wf := dot_S512x256_S256x12_S512x12_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v38) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S10000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v50) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v51) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S10000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v63) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v64) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v76) S512x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v77) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v78) S512x256.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v78) S512x256.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S256x12.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v79) S1x12.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v80) S512x12.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x12 : Shape := ⟨2, ![256, 12]⟩
abbrev S12 : Shape := ⟨1, ![12]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x1 : Shape := ⟨2, ![100000, 1]⟩
abbrev S1x128 : Shape := ⟨2, ![1, 128]⟩
abbrev S400000x128 : Shape := ⟨2, ![400000, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x256 : Shape := ⟨2, ![1, 256]⟩
abbrev S512x12 : Shape := ⟨2, ![512, 12]⟩
abbrev S1x12 : Shape := ⟨2, ![1, 12]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x400000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x256, .f32⟩
  | 12 => ⟨S256, .f32⟩
  | 13 => ⟨S256x12, .f32⟩
  | 14 => ⟨S12, .f32⟩
  | 15 => ⟨S1x400000, .i32⟩
  | 16 => ⟨S400000, .i32⟩
  | 17 => ⟨S1x400000, .i32⟩
  | 18 => ⟨S400000, .i32⟩
  | 19 => ⟨S_, .f32⟩
  | 20 => ⟨S400000, .f32⟩
  | 21 => ⟨S_, .f32⟩
  | 22 => ⟨S100000, .f32⟩
  | 23 => ⟨S400000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S1x128, .f32⟩
  | 34 => ⟨S100000x128, .f32⟩
  | 35 => ⟨S100000x128, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .f32⟩
  | 45 => ⟨S_, .f32⟩
  | 46 => ⟨S100000x128, .f32⟩
  | 47 => ⟨S400000x1, .i32⟩
  | 48 => ⟨S100000x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S_, .f32⟩
  | 69 => ⟨S100000x128, .f32⟩
  | 70 => ⟨S400000x1, .i32⟩
  | 71 => ⟨S100000x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x128, .f32⟩
  | 91 => ⟨S_, .f32⟩
  | 92 => ⟨S100000x128, .f32⟩
  | 93 => ⟨S400000x1, .i32⟩
  | 94 => ⟨S100000x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x128, .f32⟩
  | 114 => ⟨S_, .f32⟩
  | 115 => ⟨S100000x128, .f32⟩
  | 116 => ⟨S400000x1, .i32⟩
  | 117 => ⟨S100000x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S_, .f32⟩
  | 125 => ⟨S512x128, .f32⟩
  | 126 => ⟨S100000x1, .i32⟩
  | 127 => ⟨S512x128, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S512, .f32⟩
  | 4 => ⟨S100000x1, .i32⟩
  | 5 => ⟨S512, .f32⟩
  | 6 => ⟨S_, .f32⟩
  | 7 => ⟨S512, .f32⟩
  | 8 => ⟨S512, .f32⟩
  | 9 => ⟨S512x1, .f32⟩
  | 10 => ⟨S512x128, .f32⟩
  | 11 => ⟨S512x128, .f32⟩
  | 12 => ⟨S512x256, .f32⟩
  | 13 => ⟨S1x256, .f32⟩
  | 14 => ⟨S512x256, .f32⟩
  | 15 => ⟨S512x256, .f32⟩
  | 16 => ⟨S_, .f32⟩
  | 17 => ⟨S512x256, .f32⟩
  | 18 => ⟨S512x256, .f32⟩
  | 19 => ⟨S512x12, .f32⟩
  | 20 => ⟨S1x12, .f32⟩
  | 21 => ⟨S512x12, .f32⟩
  | 22 => ⟨S512x12, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_8 : Ref sig .tc := ⟨.hbm, 82, rfl⟩
abbrev main_v53 : Ref sig .tc := ⟨.hbm, 83, rfl⟩
abbrev main_v54 : Ref sig .tc := ⟨.hbm, 84, rfl⟩
abbrev main_c_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_11 : Ref sig .tc := ⟨.hbm, 105, rfl⟩
abbrev main_v71 : Ref sig .tc := ⟨.hbm, 106, rfl⟩
abbrev main_v72 : Ref sig .tc := ⟨.hbm, 107, rfl⟩
abbrev main_c_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call3_cst : Ref sig .tc := ⟨.hbm, 120, rfl⟩
abbrev main_call3_v0 : Ref sig .tc := ⟨.hbm, 121, rfl⟩
abbrev main_v83 : Ref sig .tc := ⟨.hbm, 122, rfl⟩
abbrev main_v84 : Ref sig .tc := ⟨.hbm, 123, rfl⟩
abbrev main_cst_14 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_cst_16 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call4_cst : Ref sig .tc := ⟨.hbm, 144, rfl⟩
abbrev main_call4_v0 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S12_S1x12_1 : S12.BroadcastsInDim S1x12 (![1] : Fin 1 → Fin S1x12.rank)
  bcast_S1x12_S512x12_0_1 : S1x12.BroadcastsInDim S512x12 (![0, 1] : Fin 2 → Fin S512x12.rank)
  scatter_S100000_S400000x1_S400000_n_0_0_1_wf : ScatterDims.WF S100000 S400000x1 S400000 [] [0] [0] 1
  dot_S100000x128_S128x128_S100000x128_1_0_0_1_n_n_wf : DotDims.WF S100000x128 S128x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x256_S512x256_1_0_0_1_n_n_wf : DotDims.WF S512x128 S128x256 S512x256 [1] [0] [0] [1] [] []
  dot_S512x256_S256x12_S512x12_1_0_0_1_n_n_wf : DotDims.WF S512x256 S256x12 S512x12 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x12_S512x12_1_0_0_1_n_n : DotDims S512x256 S256x12 S512x12 where
  lhsContracting := [1]
  rhsContracting := [0]
  lhsNonContracting := [0]
  rhsNonContracting := [1]
  lhsBatch := []
  rhsBatch := []
  wf := dot_S512x256_S256x12_S512x12_1_0_0_1_n_n_wf

class Facts : Prop extends Facts₀ where

variable [Facts]
-- ==== Proof.RunNamed.lean ====
/-
  The idealized kernel's run with its result named. The program is ten pallas calls among stretches of host operations;
  the contents of every unscoped buffer after the last call are the fold `W20` of the stretches' operations and the
  calls' write-backs over the launch memory. Every weakly fair execution terminates, nothing faulting, with the result
  buffer at that fold's value and the argument arrays as launched.
-/
import proofs.«178763_j66348654789163_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch of the segments, the last thread state read against the final state: the result buffer holds the
    fold's value at it, and each argument array its launch contents. -/
theorem run_named : θ_run defs (onTc (τ := τ) (main (F := F))) ⟨m, fun _ => 0, ρ⟩ (fun r => ∀ c : Dev nD,
      r.2.mem ((c.tc : Thread nD τ).loc main_v80) = W20 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v80 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c)⟩)

end Cert.KernelIdeal.RunNamed

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibBlockRows.lean ====
/-
  Small facts about row-blocked arrays, used when a blockwise computation is read as one whole-array function.

  * The offsets `![0, 0]` of a whole-block access are the zero function.
  * A one-column array broadcast along the columns reads, at `(p, c)`, its entry `(p, 0)`.
-/
import Idealize.ShloMosaic.Lib.ValueIdx
import Idealize.ShloMosaic.Lib.ValueLayout
import Idealize.ShloMosaic.Lib.Pipeline.Value

namespace Cert.LibBlockRows

open Idealize.ShloMosaic Idealize.ShloMosaic.ValueIdx

variable {α : Type}

/-- The offsets of an access at the block's origin, as the zero function. -/
theorem zero_offsets : (![0, 0] : Fin 2 → Nat) = fun _ => 0 := funext fun a => by fin_cases a <;> rfl

/-- One column broadcast over many: the result at `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibBlockRows
-- ==== Proof.LibAffineTiles.lean ====
/-
  Affine layers and the scaled, clamped hyperbolic tangent, read at coordinates over the extended reals.

  A dense layer `x · W + b` appears in two spellings. On a tile of rows it is an accumulating matrix product into a zero
  accumulator plus a `[1, B]` bias row broadcast over the tile's rows (optionally followed by a maximum with a scalar
  word); on a whole array it is the host's product plus the bias row stretched over all rows (optionally followed by a
  maximum with a broadcast scalar constant). Both read, at `(a, b)`, `(∑ k, x (a, k) · W (k, b)) + bias (0, b)`: the two
  spellings are one function of the operands, with no finiteness needed, because both products are the same finite
  sum. The second family is `tanh (max (y · s) 0)` with `s` one column stretched over the row: on a tile through a
  vector broadcast, on a whole array through the host's `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«178763_j66348654789163_1_alg».proof.Proof.LibColumnBlocks
import proofs.«178763_j66348654789163_1_alg».proof.Proof.LibCastForms
import proofs.«178763_j66348654789163_1_alg».proof.Proof.LibBlockRows

noncomputable section

namespace Cert.LibAffineTiles

open Idealize.ShloMosaic Idealize.ShloMosaic.ValueIdx

/-- A `[1, B]` row, recast to its own shape and broadcast over `A` rows, at `(p, q)` is the row's entry `q`. -/
theorem rowOver_apply {α : Type} {A B : ℕ} (v : (⟨2, ![1, B]⟩ : Shape).Idx → α)
    (hsc : (⟨2, ![1, B]⟩ : Shape).ShapeCasts ⟨2, ![1, B]⟩) (hbc : (⟨2, ![1, B]⟩ : Shape).Broadcasts ⟨2, ![A, B]⟩)
    (p : Fin A) (q : Fin B) :
    broadcastTo ⟨2, ![A, B]⟩ (shapeCast ⟨2, ![1, B]⟩ v hsc) hbc (ix2 p q) = v (ix2 (0 : Fin 1) q) := by
  rw [shapeCast_self]
  refine broadcastTo_apply v hbc (ix2 p q) (ix2 (0 : Fin 1) q) fun a => ?_
  match a with
  | ⟨0, _⟩ => exact (if_pos rfl).symm
  | ⟨1, _⟩ =>
    show q.val = if B = 1 then 0 else q.val
    split
    · have := q.isLt; omega
    · rfl

/-- A scalar placed everywhere by the host's `broadcast_in_dim` with no dimensions. -/
theorem scalarOver_apply {α : Type} {s : Shape} (x : (⟨0, ![]⟩ : Shape).Idx → α)
    (h : (⟨0, ![]⟩ : Shape).BroadcastsInDim s (![] : Fin 0 → Fin s.rank)) (j : s.Idx) :
    broadcastInDim s (![] : Fin 0 → Fin s.rank) h x j = x ix0 :=
  broadcastInDim_apply _ h x j ix0 fun a => a.elim0

section Affine
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (x : FVec Ideal ⟨2, ![A, K]⟩ .f32) (w : FVec Ideal ⟨2, ![K, B]⟩ .f32) (b : FVec Ideal ⟨2, ![1, B]⟩ .f32)
  (p : Fin A) (q : Fin B)

/-- The value of the dense layer at `(p, q)`. -/
def affineAt : EReal := (∑ k : Fin K, x (ix2 p k) * w (ix2 k q)) + b (ix2 (0 : Fin 1) q)

include hr hs hlc hrc hl0 hr1 in
/-- The tile's spelling: product into a zero accumulator, plus the bias row over the tile's rows. -/
theorem tile_apply (hsc : (⟨2, ![1, B]⟩ : Shape).ShapeCasts ⟨2, ![1, B]⟩) (hbc : (⟨2, ![1, B]⟩ : Shape).Broadcasts ⟨2, ![A, B]⟩) :
    addf (matmul d none x w (constant ⟨2, ![A, B]⟩ .f32 0x00000000#32))
      (broadcastTo ⟨2, ![A, B]⟩ (shapeCast ⟨2, ![1, B]⟩ b hsc) hbc) (ix2 p q) = affineAt x w b p q := by
  rw [addf_apply, LibColumnBlocks.matmul_zero_apply d hr hs hlc hrc hl0 hr1, rowOver_apply]
  rfl

include hr hs hlc hrc hl0 hr1 in
/-- The same with the left operand first recast to its own shape. -/
theorem tile_cast_apply (hx : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩) :
    addf (matmul d none (shapeCast ⟨2, ![A, K]⟩ x hx) w (constant ⟨2, ![A, B]⟩ .f32 0x00000000#32))
      (broadcastTo ⟨2, ![A, B]⟩ (shapeCast ⟨2, ![1, B]⟩ b hsc) hbc) (ix2 p q) = affineAt x w b p q := by
  rw [shapeCast_self]
  exact tile_apply d hr hs hlc hrc hl0 hr1 x w b p q hsc hbc

include hr hs hlc hrc hl0 hr1 in
/-- … followed by a maximum with a scalar word. -/
theorem tile_cast_max_apply (z : BitVec 32) (hx : (⟨2, ![A, K]⟩ : Shape).ShapeCasts ⟨2, ![A, K]⟩)
    (hsc : (⟨2, ![1, B]⟩ : Shape).ShapeCasts ⟨2, ![1, B]⟩) (hbc : (⟨2, ![1, B]⟩ : Shape).Broadcasts ⟨2, ![A, B]⟩) :
    maximumf (addf (matmul d none (shapeCast ⟨2, ![A, K]⟩ x hx) w (constant ⟨2, ![A, B]⟩ .f32 0x00000000#32))
      (broadcastTo ⟨2, ![A, B]⟩ (shapeCast ⟨2, ![1, B]⟩ b hsc) hbc))
      (broadcast ⟨2, ![A, B]⟩ (Scalar.ofBits (F := Ideal) .f32 z)) (ix2 p q)
      = max (affineAt x w b p q) (Ideal.ofBits .f32 z) := by
  rw [maximumf_apply, tile_cast_apply d hr hs hlc hrc hl0 hr1 x w b p q hx hsc hbc]
  rfl

include hr hs hlc hrc hl0 hr1 in
/-- The whole array's spelling: the host's product plus the bias row stretched over all rows. -/
theorem whole_apply (hb : (⟨2, ![1, B]⟩ : Shape).BroadcastsInDim ⟨2, ![A, B]⟩ (![0, 1] : Fin 2 → Fin 2)) :
    addf (Host.dotGeneral d none x w) (broadcastInDim ⟨2, ![A, B]⟩ (![0, 1] : Fin 2 → Fin 2) hb b) (ix2 p q)
      = affineAt x w b p q := by
  rw [addf_apply, LibColumnBlocks.hostDot_apply d hr hs hlc hrc hl0 hr1, LibCastForms.bcast_1b_ab_apply]
  rfl

include hr hs hlc hrc hl0 hr1 in
/-- … followed by a maximum with a broadcast scalar constant. -/
theorem whole_max_apply (z : BitVec 32) (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral d none x w) (broadcastInDim ⟨2, ![A, B]⟩ (![0, 1] : Fin 2 → Fin 2) hb b))
      (broadcastInDim ⟨2, ![A, B]⟩ (![] : Fin 0 → Fin 2) h0 (constant (F := Ideal) ⟨0, ![]⟩ .f32 z)) (ix2 p q)
      = max (affineAt x w b p q) (Ideal.ofBits .f32 z) := by
  rw [maximumf_apply, whole_apply d hr hs hlc hrc hl0 hr1 x w b p q hb, scalarOver_apply]
  rfl

/-- The dense layer as a whole array. -/
def affine : FVec Ideal ⟨2, ![A, B]⟩ .f32 := fun i => affineAt x w b (i 0) (i 1)

/-- The dense layer followed by a maximum with a scalar word, as a whole array. -/
def affineMax (z : BitVec 32) : FVec Ideal ⟨2, ![A, B]⟩ .f32 := fun i => max (affineAt x w b (i 0) (i 1)) (Ideal.ofBits .f32 z)

include hr hs hlc hrc hl0 hr1 in
/-- The host's spelling of the dense layer is that array. -/
theorem whole_eq (hb : (⟨2, ![1, B]⟩ : Shape).BroadcastsInDim ⟨2, ![A, B]⟩ (![0, 1] : Fin 2 → Fin 2)) :
    addf (Host.dotGeneral d none x w) (broadcastInDim ⟨2, ![A, B]⟩ (![0, 1] : Fin 2 → Fin 2) hb b) = affine x w b := by
  funext j
  obtain ⟨p, q, rfl⟩ : ∃ (p : Fin A) (q : Fin B), j = ix2 p q := ⟨j 0, j 1, eq_ix2 j⟩
  exact whole_apply d hr hs hlc hrc hl0 hr1 x w b p q hb

include hr hs hlc hrc hl0 hr1 in
/-- The host's spelling of the clamped dense layer is that array. -/
theorem whole_max_eq (z : BitVec 32) (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral d none x w) (broadcastInDim ⟨2, ![A, B]⟩ (![0, 1] : Fin 2 → Fin 2) hb b))
      (broadcastInDim ⟨2, ![A, B]⟩ (![] : Fin 0 → Fin 2) h0 (constant (F := Ideal) ⟨0, ![]⟩ .f32 z)) = affineMax x w b z := by
  funext j
  obtain ⟨p, q, rfl⟩ : ∃ (p : Fin A) (q : Fin B), j = ix2 p q := ⟨j 0, j 1, eq_ix2 j⟩
  exact whole_max_apply d hr hs hlc hrc hl0 hr1 x w b p q z hb h0

end Affine

section Squash
variable {A B : ℕ} (y : FVec Ideal ⟨2, ![A, B]⟩ .f32) (s : FVec Ideal ⟨2, ![A, 1]⟩ .f32) (z : BitVec 32) (p : Fin A) (q : Fin B)

/-- `tanh (max (y · s) z)` at `(p, q)`, the factor `s` taken from row `p` of one column. -/
def squashAt : EReal := Ideal.tanh (max (y (ix2 p q) * s (ix2 p (0 : Fin 1))) (Ideal.ofBits .f32 z))

/-- The tile's spelling: both operands recast to their own shapes, the column broadcast over the row. -/
theorem squash_tile_apply (hy : (⟨2, ![A, B]⟩ : Shape).ShapeCasts ⟨2, ![A, B]⟩) (hs : (⟨2, ![A, 1]⟩ : Shape).ShapeCasts ⟨2, ![A, 1]⟩)
    (hbc : (⟨2, ![A, 1]⟩ : Shape).Broadcasts ⟨2, ![A, B]⟩) :
    tanh (maximumf (mulf (shapeCast ⟨2, ![A, B]⟩ y hy) (broadcastTo ⟨2, ![A, B]⟩ (shapeCast ⟨2, ![A, 1]⟩ s hs) hbc))
      (broadcast ⟨2, ![A, B]⟩ (Scalar.ofBits (F := Ideal) .f32 z))) (ix2 p q) = squashAt y s z p q := by
  rw [shapeCast_self, shapeCast_self]
  show Ideal.tanh (max (y (ix2 p q) * broadcastTo ⟨2, ![A, B]⟩ s hbc (ix2 p q)) (Ideal.ofBits .f32 z)) = _
  rw [LibBlockRows.broadcastTo_a1_ab_apply]
  rfl

/-- The whole array's spelling on the host. -/
theorem squash_whole_apply (hb : (⟨2, ![A, 1]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    Host.tanh (maximumf (mulf y (broadcastInDim ⟨2, ![A, B]⟩ (![0, 1] : Fin 2 → Fin 2) hb s))
      (broadcastInDim ⟨2, ![A, B]⟩ (![] : Fin 0 → Fin 2) h0 (constant (F := Ideal) ⟨0, ![]⟩ .f32 z))) (ix2 p q)
      = squashAt y s z p q := by
  show Ideal.tanh (max (y (ix2 p q) * broadcastInDim ⟨2, ![A, B]⟩ (![0, 1] : Fin 2 → Fin 2) hb s (ix2 p q))
    (broadcastInDim ⟨2, ![A, B]⟩ (![] : Fin 0 → Fin 2) h0 (constant (F := Ideal) ⟨0, ![]⟩ .f32 z) (ix2 p q))) = _
  rw [LibCastForms.bcast_a1_ab_apply, scalarOver_apply]
  rfl

/-- The scaled, clamped hyperbolic tangent as a whole array. -/
def squash : FVec Ideal ⟨2, ![A, B]⟩ .f32 := fun i => squashAt y s z (i 0) (i 1)

/-- The host's spelling is that array. -/
theorem squash_whole_eq (hb : (⟨2, ![A, 1]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    Host.tanh (maximumf (mulf y (broadcastInDim ⟨2, ![A, B]⟩ (![0, 1] : Fin 2 → Fin 2) hb s))
      (broadcastInDim ⟨2, ![A, B]⟩ (![] : Fin 0 → Fin 2) h0 (constant (F := Ideal) ⟨0, ![]⟩ .f32 z))) = squash y s z := by
  funext j
  obtain ⟨p, q, rfl⟩ : ∃ (p : Fin A) (q : Fin B), j = ix2 p q := ⟨j 0, j 1, eq_ix2 j⟩
  exact squash_whole_apply y s z p q hb h0

end Squash

end Cert.LibAffineTiles

end
-- ==== Proof.Stages.lean ====
/-
  The reference's stages as whole-array functions. Its four message-passing layers each compute a dense layer
  `h · W + b` (a host product plus the bias stretched over the rows), gather and scatter-add it along the edges, and
  take `tanh (max (agg · inv_deg) 0)`; the head computes two more dense layers, the first clamped below at 0. Here each
  dense stage is shown to be the array `affine` (or `affineMax`) of its operands, with the bias vector recast as a row,
  and each activation stage the array `squash` of the aggregate and the inverse-degree column.
-/
import proofs.«178763_j66348654789163_1_alg».proof.Proof.Gen.ReferenceIdeal.Read
import proofs.«178763_j66348654789163_1_alg».proof.Proof.LibAffineTiles

noncomputable section

namespace Cert.ReferenceIdeal.Stages

open Cert.ReferenceIdeal Cert.ReferenceIdeal.Gen Cert.ReferenceIdeal.Read Idealize.ShloMosaic Idealize.ShloMosaic.ValueIdx
open Cert.LibAffineTiles

/-- A dense layer over the 100000 node rows: the host's spelling with the bias placed as a row is `affine` of the
    operands with the bias recast as a row. -/
theorem denseNodes (x : FVec Ideal S100000x128 .f32) (w : FVec Ideal S128x128 .f32) (b : FVec Ideal S128 .f32)
    (h : S128.ShapeCasts S1x128) :
    addf (Host.dotGeneral dot_S100000x128_S128x128_S100000x128_1_0_0_1_n_n none x w)
      (broadcastInDim S100000x128 ![0, 1] bcast_S1x128_S100000x128_0_1 (broadcastInDim S1x128 ![1] bcast_S128_S1x128_1 b))
      = affine (A := 100000) (K := 128) (B := 128) x w (shapeCast S1x128 b h) := by
  rw [← LibCastForms.row_cast_eq_bcast b h bcast_S128_S1x128_1]
  exact whole_eq dot_S100000x128_S128x128_S100000x128_1_0_0_1_n_n rfl rfl rfl rfl (fun _ _ => rfl) (fun _ _ => rfl) _ _ _ _

/-- The activation over the node rows: the host's spelling is `squash` of the aggregate and the factor column. -/
theorem squashNodes (y : FVec Ideal S100000x128 .f32) (s : FVec Ideal S100000x1 .f32) :
    Host.tanh (maximumf (mulf y (broadcastInDim S100000x128 ![0, 1] bcast_S100000x1_S100000x128_0_1 s))
      (broadcastInDim S100000x128 ![] bcast_S_S100000x128 (constant (F := Ideal) S_ .f32 0x00000000#32)))
      = squash (A := 100000) (B := 128) y s 0x00000000#32 :=
  squash_whole_eq y s 0x00000000#32 _ _

variable (x0 : FVec Ideal S100000x128 .f32) (x1 : IVec S2x400000 32) (x2 : IVec S100000 32)
  (x3 : FVec Ideal S128x128 .f32) (x4 : FVec Ideal S128 .f32) (x5 : FVec Ideal S128x128 .f32) (x6 : FVec Ideal S128 .f32)
  (x7 : FVec Ideal S128x128 .f32) (x8 : FVec Ideal S128 .f32) (x9 : FVec Ideal S128x128 .f32) (x10 : FVec Ideal S128 .f32)
  (x11 : FVec Ideal S128x256 .f32) (x12 : FVec Ideal S256 .f32) (x13 : FVec Ideal S256x12 .f32) (x14 : FVec Ideal S12 .f32)
  (h : S128.ShapeCasts S1x128)

/-- Layer 1's dense stage. -/
theorem dense1 : val_main_v16 (F := Ideal) x0 x3 x4 = affine (A := 100000) (K := 128) (B := 128) x0 x3 (shapeCast S1x128 x4 h) := by
  unfold val_main_v16 val_main_v15 val_main_v14 val_main_v13
  exact denseNodes _ _ _ h

/-- Layer 1's activation. -/
theorem act1 : val_main_v30 (F := Ideal) x0 x1 x3 x4
    = squash (A := 100000) (B := 128) (val_main_v26 (F := Ideal) x0 x1 x3 x4) (val_main_v12 (F := Ideal) x1) 0x00000000#32 := by
  unfold val_main_v30 val_main_v29 val_main_v28 val_main_v27 val_main_call0_v0 val_main_call0_cst
  exact squashNodes _ _

/-- Layer 2's dense stage. -/
theorem dense2 : val_main_v34 (F := Ideal) x0 x1 x3 x4 x5 x6
    = affine (A := 100000) (K := 128) (B := 128) (val_main_v30 (F := Ideal) x0 x1 x3 x4) x5 (shapeCast S1x128 x6 h) := by
  unfold val_main_v34 val_main_v33 val_main_v32 val_main_v31
  exact denseNodes _ _ _ h

/-- Layer 2's activation. -/
theorem act2 : val_main_v48 (F := Ideal) x0 x1 x3 x4 x5 x6
    = squash (A := 100000) (B := 128) (val_main_v44 (F := Ideal) x0 x1 x3 x4 x5 x6) (val_main_v12 (F := Ideal) x1) 0x00000000#32 := by
  unfold val_main_v48 val_main_v47 val_main_v46 val_main_v45 val_main_call1_v0 val_main_call1_cst
  exact squashNodes _ _

/-- Layer 3's dense stage. -/
theorem dense3 : val_main_v52 (F := Ideal) x0 x1 x3 x4 x5 x6 x7 x8
    = affine (A := 100000) (K := 128) (B := 128) (val_main_v48 (F := Ideal) x0 x1 x3 x4 x5 x6) x7 (shapeCast S1x128 x8 h) := by
  unfold val_main_v52 val_main_v51 val_main_v50 val_main_v49
  exact denseNodes _ _ _ h

/-- Layer 3's activation. -/
theorem act3 : val_main_v66 (F := Ideal) x0 x1 x3 x4 x5 x6 x7 x8
    = squash (A := 100000) (B := 128) (val_main_v62 (F := Ideal) x0 x1 x3 x4 x5 x6 x7 x8) (val_main_v12 (F := Ideal) x1) 0x00000000#32 := by
  unfold val_main_v66 val_main_v65 val_main_v64 val_main_v63 val_main_call2_v0 val_main_call2_cst
  exact squashNodes _ _

/-- Layer 4's dense stage. -/
theorem dense4 : val_main_v70 (F := Ideal) x0 x1 x3 x4 x5 x6 x7 x8 x9 x10
    = affine (A := 100000) (K := 128) (B := 128) (val_main_v66 (F := Ideal) x0 x1 x3 x4 x5 x6 x7 x8) x9 (shapeCast S1x128 x10 h) := by
  unfold val_main_v70 val_main_v69 val_main_v68 val_main_v67
  exact denseNodes _ _ _ h

/-- Layer 4's activation. -/
theorem act4 : val_main_v84 (F := Ideal) x0 x1 x3 x4 x5 x6 x7 x8 x9 x10
    = squash (A := 100000) (B := 128) (val_main_v80 (F := Ideal) x0 x1 x3 x4 x5 x6 x7 x8 x9 x10) (val_main_v12 (F := Ideal) x1) 0x00000000#32 := by
  unfold val_main_v84 val_main_v83 val_main_v82 val_main_v81 val_main_call3_v0 val_main_call3_cst
  exact squashNodes _ _

/-- The head's first dense layer over the 512 graph rows, clamped below at 0. -/
theorem head1 (h' : S256.ShapeCasts S1x256) : val_main_v101 (F := Ideal) x0 x1 x2 x3 x4 x5 x6 x7 x8 x9 x10 x11 x12
    = affineMax (A := 512) (K := 128) (B := 256) (val_main_v96 (F := Ideal) x0 x1 x2 x3 x4 x5 x6 x7 x8 x9 x10) x11
        (shapeCast S1x256 x12 h') 0x00000000#32 := by
  unfold val_main_v101 val_main_v100 val_main_v99 val_main_v98 val_main_v97 val_main_call4_v0 val_main_call4_cst
  rw [← LibCastForms.row_cast_eq_bcast x12 h' bcast_S256_S1x256_1]
  exact whole_max_eq dot_S512x128_S128x256_S512x256_1_0_0_1_n_n rfl rfl rfl rfl (fun _ _ => rfl) (fun _ _ => rfl) _ _ _ _ _ _

/-- The head's second dense layer. -/
theorem head2 (h'' : S12.ShapeCasts S1x12) : val_main_v105 (F := Ideal) x0 x1 x2 x3 x4 x5 x6 x7 x8 x9 x10 x11 x12 x13 x14
    = affine (A := 512) (K := 256) (B := 12) (val_main_v101 (F := Ideal) x0 x1 x2 x3 x4 x5 x6 x7 x8 x9 x10 x11 x12) x13
        (shapeCast S1x12 x14 h'') := by
  unfold val_main_v105 val_main_v104 val_main_v103 val_main_v102
  rw [← LibCastForms.row_cast_eq_bcast x14 h'' bcast_S12_S1x12_1]
  exact whole_eq dot_S512x256_S256x12_S512x12_1_0_0_1_n_n rfl rfl rfl rfl (fun _ _ => rfl) (fun _ _ => rfl) _ _ _ _

end Cert.ReferenceIdeal.Stages

end
-- ==== Proof.Region0.lean ====
/-
  Pallas call 0: a dense layer on tiles of 10000 rows. Each grid point reads rows `t·10000 … t·10000+9999` of the left operand,
  the whole weight matrix and the whole bias row, and writes the same rows of the result. Its tile at `(p, q)` is
  `(∑ k, x (p, k) · W (k, q)) + bias (0, q)`, the whole-array dense layer at row `t·10000 + p`; the 10 tiles cover the
  100000 rows, so the array the call leaves is the dense layer of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the left operand's and the result's row blocks move together, every other
    block index is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- The tile's value at `(p, q)`. -/
theorem pay (x0 : Vec Ideal S10000x128 .f32) (x1 : Vec Ideal S128x128 .f32) (x2 : Vec Ideal S1x128 .f32) (p : Fin 10000) (q : Fin 128) :
    k0_pay1 (F := Ideal) x0 x1 x2 (ix2 p q) = LibAffineTiles.affineAt x0 x1 x2 p q :=
  LibAffineTiles.tile_apply dot_S10000x128_S128x128_S10000x128_1_0_0_1_n_n rfl rfl rfl rfl (fun _ _ => rfl) (fun _ _ => rfl) x0 x1 x2 p q _ _

/-- The left operand's block at point `t`, entry `(p, k)`: the array at row `t·10000 + p`. -/
theorem blk0_apply (c : Dev nD) (t : Fin cfg0.N) (p : Fin 10000) (k : Fin 128) (a : Fin 100000)
    (ha : a.val = win0_3.index t (0 : Fin 2) * 10000 + p.val) :
    iblk0 V c 0 t (ix2 p k) = (V c main_arg0 : S100000x128.Idx → EReal) (ix2 a k) := by
  obtain ⟨e0, e1, e2, e3, e4, e5, e6, e7⟩ := idx_facts t
  show (V c main_arg0 : _ → EReal) (((cfg0.win 0).blk t).view.emb (ix2 p k)) = _
  refine congrArg _ (funext fun d => Fin.ext ?_)
  match d with
  | ⟨0, _⟩ => show win0_0.index t (0 : Fin 2) * 10000 + 1 * p.val = a.val; omega
  | ⟨1, _⟩ => show win0_0.index t (1 : Fin 2) * 128 + 1 * k.val = k.val; omega

/-- The weight matrix's block is the whole matrix. -/
theorem blk1_apply (c : Dev nD) (t : Fin cfg0.N) (k : Fin 128) (q : Fin 128) :
    iblk0 V c 1 t (ix2 k q) = (V c main_arg3 : S128x128.Idx → EReal) (ix2 k q) := by
  obtain ⟨e0, e1, e2, e3, e4, e5, e6, e7⟩ := idx_facts t
  show (V c main_arg3 : _ → EReal) (((cfg0.win 1).blk t).view.emb (ix2 k q)) = _
  refine congrArg _ (funext fun d => Fin.ext ?_)
  match d with
  | ⟨0, _⟩ => show win0_1.index t (0 : Fin 2) * 128 + 1 * k.val = k.val; omega
  | ⟨1, _⟩ => show win0_1.index t (1 : Fin 2) * 128 + 1 * q.val = q.val; omega

/-- The bias row's block is the whole row. -/
theorem blk2_apply (c : Dev nD) (t : Fin cfg0.N) (z : Fin 1) (q : Fin 128) :
    iblk0 V c 2 t (ix2 z q) = (V c main_v13 : S1x128.Idx → EReal) (ix2 z q) := by
  obtain ⟨e0, e1, e2, e3, e4, e5, e6, e7⟩ := idx_facts t
  show (V c main_v13 : _ → EReal) (((cfg0.win 2).blk t).view.emb (ix2 z q)) = _
  refine congrArg _ (funext fun d => Fin.ext ?_)
  match d with
  | ⟨0, _⟩ => show win0_2.index t (0 : Fin 2) * 1 + 1 * z.val = z.val; omega
  | ⟨1, _⟩ => show win0_2.index t (1 : Fin 2) * 128 + 1 * q.val = q.val; omega

/-- What point `t` writes back is its block of the whole-array dense layer. -/
theorem flushed_eq (c : Dev nD) (t : Fin cfg0.N) :
    (dat0 V c).flushed 3 t = ((cfg0.win 3).blk t).view.read (Elt Ideal)
      (LibAffineTiles.affine (A := 100000) (K := 128) (B := 128) (V c main_arg0) (V c main_arg3) (V c main_v13)) := by
  show (cfg0.win 3).cut (grid0.coords t) ((dat0 V c).after 3 t) = _
  rw [after0_3]
  unfold out0_3
  rw [View.canon_unit_zero LibBlockRows.zero_offsets]
  simp only [View.ld_unit_zero (S := S10000x128) LibBlockRows.zero_offsets, View.ld_unit_zero (S := S128x128) LibBlockRows.zero_offsets,
    View.ld_unit_zero (S := S1x128) LibBlockRows.zero_offsets]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have hp : p.val < 10000 := p.isLt
  have hemb : ((cfg0.win 3).blk t).view.emb (ix2 p q)
      = ix2 (⟨win0_3.index t (0 : Fin 2) * 10000 + p.val, by omega⟩ : Fin 100000) q := by
    funext d
    apply Fin.ext
    match d with
    | ⟨0, _⟩ => show win0_3.index t (0 : Fin 2) * 10000 + 1 * p.val = win0_3.index t (0 : Fin 2) * 10000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = (LibAffineTiles.affine (A := 100000) (K := 128) (B := 128) (V c main_arg0) (V c main_arg3) (V c main_v13)) (((cfg0.win 3).blk t).view.emb (ix2 p q))
  rw [hemb]
  refine (pay _ _ _ p q).trans ?_
  show LibAffineTiles.affineAt (iblk0 V c 0 t) (iblk0 V c 1 t) (iblk0 V c 2 t) p q = LibAffineTiles.affineAt (V c main_arg0) (V c main_arg3) (V c main_v13) _ q
  unfold LibAffineTiles.affineAt
  rw [blk2_apply V c t 0 q]
  refine congrArg (· + _) ?_
  refine Finset.sum_congr rfl fun k _ => ?_
  rw [blk0_apply V c t p k ⟨win0_3.index t (0 : Fin 2) * 10000 + p.val, by omega⟩ rfl, blk1_apply V c t k q]

/-- An index of the result array is in point `t`'s block iff its row is in the block's row range. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v14).slice (win0_3.rect t)).set ↔ _
  rw [View.set_slice_whole, Rect.mem_set_unit]
  exact Iff.rfl

/-- Every index of the result array is in the block of the point that owns its row. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The array the call leaves: the dense layer of the arrays it found. -/
theorem final (c : Dev nD) : (dat0 V c).arrAt 3 cfg0.N = LibAffineTiles.affine (A := 100000) (K := 128) (B := 128) (V c main_arg0) (V c main_arg3) (V c main_v13) :=
  (dat0 V c).arrAt_eq_of_cover 3 _ (fun t _ => flushed_eq V c t) cover

end Cert.KernelIdeal.Region0

end
-- ==== Proof.Region1.lean ====
/-
  Pallas call 1: the scaled, clamped hyperbolic tangent on tiles of 10000 rows. Each grid point reads rows
  `t·10000 … t·10000+9999` of the aggregate and of the one-column factor, and writes the same rows of the result:
  `tanh (max (agg (r, q) · factor (r, 0)) 0)` at row `r = t·10000 + p`. The 10 tiles cover the 100000 rows, so the array the
  call leaves is that function of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the three row blocks move together, every column block index is 0. -/
theorem idx_facts : ∀ t : Fin cfg1.N,
    win1_0.index t (0 : Fin 2) = win1_2.index t (0 : Fin 2) ∧ win1_0.index t (1 : Fin 2) = 0
    ∧ win1_1.index t (0 : Fin 2) = win1_2.index t (0 : Fin 2) ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The tile's value at `(p, q)`. -/
theorem pay (x0 : Vec Ideal S10000x128 .f32) (x1 : Vec Ideal S10000x1 .f32) (p : Fin 10000) (q : Fin 128) :
    k1_pay1 (F := Ideal) x0 x1 (ix2 p q) = LibAffineTiles.squashAt x0 x1 0x00000000#32 p q :=
  LibAffineTiles.squash_tile_apply x0 x1 0x00000000#32 p q _ _ _

/-- The aggregate's block at point `t`, entry `(p, q)`: the array at row `t·10000 + p`. -/
theorem blk0_apply (c : Dev nD) (t : Fin cfg1.N) (p : Fin 10000) (q : Fin 128) (a : Fin 100000)
    (ha : a.val = win1_2.index t (0 : Fin 2) * 10000 + p.val) :
    iblk1 V c 0 t (ix2 p q) = (V c main_v24 : S100000x128.Idx → EReal) (ix2 a q) := by
  obtain ⟨e0, e1, e2, e3, e4, e5⟩ := idx_facts t
  show (V c main_v24 : _ → EReal) (((cfg1.win 0).blk t).view.emb (ix2 p q)) = _
  refine congrArg _ (funext fun d => Fin.ext ?_)
  match d with
  | ⟨0, _⟩ => show win1_0.index t (0 : Fin 2) * 10000 + 1 * p.val = a.val; omega
  | ⟨1, _⟩ => show win1_0.index t (1 : Fin 2) * 128 + 1 * q.val = q.val; omega

/-- The factor column's block at point `t`, entry `(p, 0)`: the column at row `t·10000 + p`. -/
theorem blk1_apply (c : Dev nD) (t : Fin cfg1.N) (p : Fin 10000) (z : Fin 1) (a : Fin 100000)
    (ha : a.val = win1_2.index t (0 : Fin 2) * 10000 + p.val) :
    iblk1 V c 1 t (ix2 p z) = (V c main_v12 : S100000x1.Idx → EReal) (ix2 a z) := by
  obtain ⟨e0, e1, e2, e3, e4, e5⟩ := idx_facts t
  show (V c main_v12 : _ → EReal) (((cfg1.win 1).blk t).view.emb (ix2 p z)) = _
  refine congrArg _ (funext fun d => Fin.ext ?_)
  match d with
  | ⟨0, _⟩ => show win1_1.index t (0 : Fin 2) * 10000 + 1 * p.val = a.val; omega
  | ⟨1, _⟩ => show win1_1.index t (1 : Fin 2) * 1 + 1 * z.val = z.val; omega

/-- What point `t` writes back is its block of the whole-array function. -/
theorem flushed_eq (c : Dev nD) (t : Fin cfg1.N) :
    (dat1 V c).flushed 2 t = ((cfg1.win 2).blk t).view.read (Elt Ideal)
      (LibAffineTiles.squash (A := 100000) (B := 128) (V c main_v24) (V c main_v12) 0x00000000#32) := by
  show (cfg1.win 2).cut (grid1.coords t) ((dat1 V c).after 2 t) = _
  rw [after1_2]
  unfold out1_2
  rw [View.canon_unit_zero LibBlockRows.zero_offsets]
  simp only [View.ld_unit_zero (S := S10000x128) LibBlockRows.zero_offsets, View.ld_unit_zero (S := S10000x1) LibBlockRows.zero_offsets]
  obtain ⟨e0, e1, e2, e3, e4, e5⟩ := idx_facts t
  funext j
  obtain ⟨p, q, rfl⟩ : ∃ (p : Fin 10000) (q : Fin 128), j = ix2 p q := ⟨j 0, j 1, eq_ix2 j⟩
  have hp : p.val < 10000 := p.isLt
  have hemb : ((cfg1.win 2).blk t).view.emb (ix2 p q)
      = ix2 (⟨win1_2.index t (0 : Fin 2) * 10000 + p.val, by omega⟩ : Fin 100000) q := by
    funext d
    apply Fin.ext
    match d with
    | ⟨0, _⟩ => show win1_2.index t (0 : Fin 2) * 10000 + 1 * p.val = win1_2.index t (0 : Fin 2) * 10000 + p.val; omega
    | ⟨1, _⟩ => show win1_2.index t (1 : Fin 2) * 128 + 1 * q.val = q.val; omega
  show k1_pay1 (F := Ideal) (iblk1 V c 0 t) (iblk1 V c 1 t) (ix2 p q)
    = (LibAffineTiles.squash (A := 100000) (B := 128) (V c main_v24) (V c main_v12) 0x00000000#32) (((cfg1.win 2).blk t).view.emb (ix2 p q))
  rw [hemb]
  refine (pay _ _ p q).trans ?_
  show LibAffineTiles.squashAt (iblk1 V c 0 t) (iblk1 V c 1 t) _ p q = LibAffineTiles.squashAt (V c main_v24) (V c main_v12) _ _ q
  unfold LibAffineTiles.squashAt
  rw [blk0_apply V c t p q ⟨win1_2.index t (0 : Fin 2) * 10000 + p.val, by omega⟩ rfl,
    blk1_apply V c t p 0 ⟨win1_2.index t (0 : Fin 2) * 10000 + p.val, by omega⟩ rfl]

/-- An index of the result array is in point `t`'s block iff its row is in the block's row range. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v25).slice (win1_2.rect t)).set ↔ _
  rw [View.set_slice_whole, Rect.mem_set_unit]
  exact Iff.rfl

/-- Every index of the result array is in the block of the point that owns its row. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array the call leaves: that function of the arrays it found. -/
theorem final (c : Dev nD) : (dat1 V c).arrAt 2 cfg1.N = LibAffineTiles.squash (A := 100000) (B := 128) (V c main_v24) (V c main_v12) 0x00000000#32 :=
  (dat1 V c).arrAt_eq_of_cover 2 _ (fun t _ => flushed_eq V c t) cover

end Cert.KernelIdeal.Region1

end
-- ==== Proof.ChainA.lean ====
/-
  The idealized kernel's buffer contents at the boundaries of its run, read against the reference's stages: boundaries 1 to 4 (the edge lists, the inverse-degree column and layer 1).
  A buffer that no operation of a host stretch and no window of a pallas call writes keeps its contents; a stretch's result is
  its operations' value of the contents before it; a call's result array is the whole-array function its region module proves,
  which is the reference's stage of the same operands.
-/
import proofs.«178763_j66348654789163_1_alg».proof.Proof.Gen.KernelIdeal.Frame
import proofs.«178763_j66348654789163_1_alg».proof.Proof.Stages
import proofs.«178763_j66348654789163_1_alg».proof.Proof.Region0
import proofs.«178763_j66348654789163_1_alg».proof.Proof.Region1

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option quotPrecheck false

local notation "X0" => (m ((c : Thread nD τ).loc main_arg0))
local notation "X1" => (m ((c : Thread nD τ).loc main_arg1))
local notation "X2" => (m ((c : Thread nD τ).loc main_arg2))
local notation "X3" => (m ((c : Thread nD τ).loc main_arg3))
local notation "X4" => (m ((c : Thread nD τ).loc main_arg4))
local notation "X5" => (m ((c : Thread nD τ).loc main_arg5))
local notation "X6" => (m ((c : Thread nD τ).loc main_arg6))
local notation "X7" => (m ((c : Thread nD τ).loc main_arg7))
local notation "X8" => (m ((c : Thread nD τ).loc main_arg8))
local notation "X9" => (m ((c : Thread nD τ).loc main_arg9))
local notation "X10" => (m ((c : Thread nD τ).loc main_arg10))
local notation "X11" => (m ((c : Thread nD τ).loc main_arg11))
local notation "X12" => (m ((c : Thread nD τ).loc main_arg12))
local notation "X13" => (m ((c : Thread nD τ).loc main_arg13))
local notation "X14" => (m ((c : Thread nD τ).loc main_arg14))

/-! ## Boundary 1: after host stretch 0 -/

set_option maxHeartbeats 2000000 in
theorem f_v1_1 : W1 m ρ c (Proc.devRef .tc main_v1) = Cert.ReferenceIdeal.Read.val_main_v1 (F := Ideal) X1 := by
  show StableHlo.after hostOps0 (W0 m ρ c) (Proc.devRef .tc main_v1) = _
  after_results_simp
  all_goals rfl

set_option maxHeartbeats 2000000 in
theorem f_v3_1 : W1 m ρ c (Proc.devRef .tc main_v3) = Cert.ReferenceIdeal.Read.val_main_v3 (F := Ideal) X1 := by
  show StableHlo.after hostOps0 (W0 m ρ c) (Proc.devRef .tc main_v3) = _
  after_results_simp
  all_goals rfl

set_option maxHeartbeats 2000000 in
theorem f_v12_1 : W1 m ρ c (Proc.devRef .tc main_v12) = Cert.ReferenceIdeal.Read.val_main_v12 (F := Ideal) X1 := by
  show StableHlo.after hostOps0 (W0 m ρ c) (Proc.devRef .tc main_v12) = _
  after_results_simp
  all_goals rfl

set_option maxHeartbeats 2000000 in
theorem f_v13_1 : W1 m ρ c (Proc.devRef .tc main_v13) = shapeCast S1x128 X4 shapeCasts_S128_S1x128 := by
  show StableHlo.after hostOps0 (W0 m ρ c) (Proc.devRef .tc main_v13) = _
  after_results_simp
  all_goals rfl

theorem f_arg0_1 : W1 m ρ c (Proc.devRef .tc main_arg0) = X0 := by
  show StableHlo.after hostOps0 (W0 m ρ c) (Proc.devRef .tc main_arg0) = _
  after_results
  all_goals exact rfl

theorem f_arg3_1 : W1 m ρ c (Proc.devRef .tc main_arg3) = X3 := by
  show StableHlo.after hostOps0 (W0 m ρ c) (Proc.devRef .tc main_arg3) = _
  after_results
  all_goals exact rfl

theorem f_arg5_1 : W1 m ρ c (Proc.devRef .tc main_arg5) = X5 := by
  show StableHlo.after hostOps0 (W0 m ρ c) (Proc.devRef .tc main_arg5) = _
  after_results
  all_goals exact rfl

theorem f_arg6_1 : W1 m ρ c (Proc.devRef .tc main_arg6) = X6 := by
  show StableHlo.after hostOps0 (W0 m ρ c) (Proc.devRef .tc main_arg6) = _
  after_results
  all_goals exact rfl

theorem f_arg7_1 : W1 m ρ c (Proc.devRef .tc main_arg7) = X7 := by
  show StableHlo.after hostOps0 (W0 m ρ c) (Proc.devRef .tc main_arg7) = _
  after_results
  all_goals exact rfl

theorem f_arg8_1 : W1 m ρ c (Proc.devRef .tc main_arg8) = X8 := by
  show StableHlo.after hostOps0 (W0 m ρ c) (Proc.devRef .tc main_arg8) = _
  after_results
  all_goals exact rfl

theorem f_arg9_1 : W1 m ρ c (Proc.devRef .tc main_arg9) = X9 := by
  show StableHlo.after hostOps0 (W0 m ρ c) (Proc.devRef .tc main_arg9) = _
  after_results
  all_goals exact rfl

theorem f_arg10_1 : W1 m ρ c (Proc.devRef .tc main_arg10) = X10 := by
  show StableHlo.after hostOps0 (W0 m ρ c) (Proc.devRef .tc main_arg10) = _
  after_results
  all_goals exact rfl

theorem f_arg2_1 : W1 m ρ c (Proc.devRef .tc main_arg2) = X2 := by
  show StableHlo.after hostOps0 (W0 m ρ c) (Proc.devRef .tc main_arg2) = _
  after_results
  all_goals exact rfl

theorem f_arg12_1 : W1 m ρ c (Proc.devRef .tc main_arg12) = X12 := by
  show StableHlo.after hostOps0 (W0 m ρ c) (Proc.devRef .tc main_arg12) = _
  after_results
  all_goals exact rfl

theorem f_arg11_1 : W1 m ρ c (Proc.devRef .tc main_arg11) = X11 := by
  show StableHlo.after hostOps0 (W0 m ρ c) (Proc.devRef .tc main_arg11) = _
  after_results
  all_goals exact rfl

theorem f_arg14_1 : W1 m ρ c (Proc.devRef .tc main_arg14) = X14 := by
  show StableHlo.after hostOps0 (W0 m ρ c) (Proc.devRef .tc main_arg14) = _
  after_results
  all_goals exact rfl

theorem f_arg13_1 : W1 m ρ c (Proc.devRef .tc main_arg13) = X13 := by
  show StableHlo.after hostOps0 (W0 m ρ c) (Proc.devRef .tc main_arg13) = _
  after_results
  all_goals exact rfl

/-! ## Boundary 2: after pallas call 0 -/

theorem f_v14_2 : W2 m ρ c (Proc.devRef .tc main_v14) = Cert.ReferenceIdeal.Read.val_main_v16 (F := Ideal) X0 X3 X4 := by
  refine (W2_arr m ρ c 3).trans ((Region0.final (V1 m ρ) c).trans ?_)
  show LibAffineTiles.affine (A := 100000) (K := 128) (B := 128) (W1 m ρ c (Proc.devRef .tc main_arg0)) (W1 m ρ c (Proc.devRef .tc main_arg3)) (W1 m ρ c (Proc.devRef .tc main_v13)) = _
  rw [f_arg0_1 m ρ c, f_arg3_1 m ρ c, f_v13_1 m ρ c]
  exact (Cert.ReferenceIdeal.Stages.dense1 _ _ _ _).symm

theorem f_arg5_2 : W2 m ρ c (Proc.devRef .tc main_arg5) = X5 :=
  (W2_of_ne m ρ c main_arg5 (by decide)).trans (f_arg5_1 m ρ c)

theorem f_arg6_2 : W2 m ρ c (Proc.devRef .tc main_arg6) = X6 :=
  (W2_of_ne m ρ c main_arg6 (by decide)).trans (f_arg6_1 m ρ c)

theorem f_arg7_2 : W2 m ρ c (Proc.devRef .tc main_arg7) = X7 :=
  (W2_of_ne m ρ c main_arg7 (by decide)).trans (f_arg7_1 m ρ c)

theorem f_arg8_2 : W2 m ρ c (Proc.devRef .tc main_arg8) = X8 :=
  (W2_of_ne m ρ c main_arg8 (by decide)).trans (f_arg8_1 m ρ c)

theorem f_arg9_2 : W2 m ρ c (Proc.devRef .tc main_arg9) = X9 :=
  (W2_of_ne m ρ c main_arg9 (by decide)).trans (f_arg9_1 m ρ c)

theorem f_arg10_2 : W2 m ρ c (Proc.devRef .tc main_arg10) = X10 :=
  (W2_of_ne m ρ c main_arg10 (by decide)).trans (f_arg10_1 m ρ c)

theorem f_arg2_2 : W2 m ρ c (Proc.devRef .tc main_arg2) = X2 :=
  (W2_of_ne m ρ c main_arg2 (by decide)).trans (f_arg2_1 m ρ c)

theorem f_arg12_2 : W2 m ρ c (Proc.devRef .tc main_arg12) = X12 :=
  (W2_of_ne m ρ c main_arg12 (by decide)).trans (f_arg12_1 m ρ c)

theorem f_arg11_2 : W2 m ρ c (Proc.devRef .tc main_arg11) = X11 :=
  (W2_of_ne m ρ c main_arg11 (by decide)).trans (f_arg11_1 m ρ c)

theorem f_arg14_2 : W2 m ρ c (Proc.devRef .tc main_arg14) = X14 :=
  (W2_of_ne m ρ c main_arg14 (by decide)).trans (f_arg14_1 m ρ c)

theorem f_arg13_2 : W2 m ρ c (Proc.devRef .tc main_arg13) = X13 :=
  (W2_of_ne m ρ c main_arg13 (by decide)).trans (f_arg13_1 m ρ c)

theorem f_v1_2 : W2 m ρ c (Proc.devRef .tc main_v1) = Cert.ReferenceIdeal.Read.val_main_v1 (F := Ideal) X1 :=
  (W2_of_ne m ρ c main_v1 (by decide)).trans (f_v1_1 m ρ c)

theorem f_v3_2 : W2 m ρ c (Proc.devRef .tc main_v3) = Cert.ReferenceIdeal.Read.val_main_v3 (F := Ideal) X1 :=
  (W2_of_ne m ρ c main_v3 (by decide)).trans (f_v3_1 m ρ c)

theorem f_v12_2 : W2 m ρ c (Proc.devRef .tc main_v12) = Cert.ReferenceIdeal.Read.val_main_v12 (F := Ideal) X1 :=
  (W2_of_ne m ρ c main_v12 (by decide)).trans (f_v12_1 m ρ c)

/-! ## Boundary 3: after host stretch 1 -/

set_option maxHeartbeats 2000000 in
theorem f_v24_3 : W3 m ρ c (Proc.devRef .tc main_v24) = Cert.ReferenceIdeal.Read.val_main_v26 (F := Ideal) X0 X1 X3 X4 := by
  show StableHlo.after hostOps1 (W2 m ρ c) (Proc.devRef .tc main_v24) = _
  after_results_simp
  rw [f_v14_2 m ρ c, f_v1_2 m ρ c, f_v3_2 m ρ c]
  all_goals rfl

theorem f_arg5_3 : W3 m ρ c (Proc.devRef .tc main_arg5) = X5 := by
  show StableHlo.after hostOps1 (W2 m ρ c) (Proc.devRef .tc main_arg5) = _
  after_results
  all_goals exact f_arg5_2 m ρ c

theorem f_arg6_3 : W3 m ρ c (Proc.devRef .tc main_arg6) = X6 := by
  show StableHlo.after hostOps1 (W2 m ρ c) (Proc.devRef .tc main_arg6) = _
  after_results
  all_goals exact f_arg6_2 m ρ c

theorem f_arg7_3 : W3 m ρ c (Proc.devRef .tc main_arg7) = X7 := by
  show StableHlo.after hostOps1 (W2 m ρ c) (Proc.devRef .tc main_arg7) = _
  after_results
  all_goals exact f_arg7_2 m ρ c

theorem f_arg8_3 : W3 m ρ c (Proc.devRef .tc main_arg8) = X8 := by
  show StableHlo.after hostOps1 (W2 m ρ c) (Proc.devRef .tc main_arg8) = _
  after_results
  all_goals exact f_arg8_2 m ρ c

theorem f_arg9_3 : W3 m ρ c (Proc.devRef .tc main_arg9) = X9 := by
  show StableHlo.after hostOps1 (W2 m ρ c) (Proc.devRef .tc main_arg9) = _
  after_results
  all_goals exact f_arg9_2 m ρ c

theorem f_arg10_3 : W3 m ρ c (Proc.devRef .tc main_arg10) = X10 := by
  show StableHlo.after hostOps1 (W2 m ρ c) (Proc.devRef .tc main_arg10) = _
  after_results
  all_goals exact f_arg10_2 m ρ c

theorem f_arg2_3 : W3 m ρ c (Proc.devRef .tc main_arg2) = X2 := by
  show StableHlo.after hostOps1 (W2 m ρ c) (Proc.devRef .tc main_arg2) = _
  after_results
  all_goals exact f_arg2_2 m ρ c

theorem f_arg12_3 : W3 m ρ c (Proc.devRef .tc main_arg12) = X12 := by
  show StableHlo.after hostOps1 (W2 m ρ c) (Proc.devRef .tc main_arg12) = _
  after_results
  all_goals exact f_arg12_2 m ρ c

theorem f_arg11_3 : W3 m ρ c (Proc.devRef .tc main_arg11) = X11 := by
  show StableHlo.after hostOps1 (W2 m ρ c) (Proc.devRef .tc main_arg11) = _
  after_results
  all_goals exact f_arg11_2 m ρ c

theorem f_arg14_3 : W3 m ρ c (Proc.devRef .tc main_arg14) = X14 := by
  show StableHlo.after hostOps1 (W2 m ρ c) (Proc.devRef .tc main_arg14) = _
  after_results
  all_goals exact f_arg14_2 m ρ c

theorem f_arg13_3 : W3 m ρ c (Proc.devRef .tc main_arg13) = X13 := by
  show StableHlo.after hostOps1 (W2 m ρ c) (Proc.devRef .tc main_arg13) = _
  after_results
  all_goals exact f_arg13_2 m ρ c

theorem f_v1_3 : W3 m ρ c (Proc.devRef .tc main_v1) = Cert.ReferenceIdeal.Read.val_main_v1 (F := Ideal) X1 := by
  show StableHlo.after hostOps1 (W2 m ρ c) (Proc.devRef .tc main_v1) = _
  after_results
  all_goals exact f_v1_2 m ρ c

theorem f_v3_3 : W3 m ρ c (Proc.devRef .tc main_v3) = Cert.ReferenceIdeal.Read.val_main_v3 (F := Ideal) X1 := by
  show StableHlo.after hostOps1 (W2 m ρ c) (Proc.devRef .tc main_v3) = _
  after_results
  all_goals exact f_v3_2 m ρ c

theorem f_v12_3 : W3 m ρ c (Proc.devRef .tc main_v12) = Cert.ReferenceIdeal.Read.val_main_v12 (F := Ideal) X1 := by
  show StableHlo.after hostOps1 (W2 m ρ c) (Proc.devRef .tc main_v12) = _
  after_results
  all_goals exact f_v12_2 m ρ c

/-! ## Boundary 4: after pallas call 1 -/

theorem f_v25_4 : W4 m ρ c (Proc.devRef .tc main_v25) = Cert.ReferenceIdeal.Read.val_main_v30 (F := Ideal) X0 X1 X3 X4 := by
  refine (W4_arr m ρ c 2).trans ((Region1.final (V3 m ρ) c).trans ?_)
  show LibAffineTiles.squash (A := 100000) (B := 128) (W3 m ρ c (Proc.devRef .tc main_v24)) (W3 m ρ c (Proc.devRef .tc main_v12)) 0x00000000#32 = _
  rw [f_v24_3 m ρ c, f_v12_3 m ρ c]
  exact (Cert.ReferenceIdeal.Stages.act1 _ _ _ _).symm

theorem f_arg5_4 : W4 m ρ c (Proc.devRef .tc main_arg5) = X5 :=
  (W4_of_ne m ρ c main_arg5 (by decide)).trans (f_arg5_3 m ρ c)

theorem f_arg6_4 : W4 m ρ c (Proc.devRef .tc main_arg6) = X6 :=
  (W4_of_ne m ρ c main_arg6 (by decide)).trans (f_arg6_3 m ρ c)

theorem f_arg7_4 : W4 m ρ c (Proc.devRef .tc main_arg7) = X7 :=
  (W4_of_ne m ρ c main_arg7 (by decide)).trans (f_arg7_3 m ρ c)

theorem f_arg8_4 : W4 m ρ c (Proc.devRef .tc main_arg8) = X8 :=
  (W4_of_ne m ρ c main_arg8 (by decide)).trans (f_arg8_3 m ρ c)

theorem f_arg9_4 : W4 m ρ c (Proc.devRef .tc main_arg9) = X9 :=
  (W4_of_ne m ρ c main_arg9 (by decide)).trans (f_arg9_3 m ρ c)

theorem f_arg10_4 : W4 m ρ c (Proc.devRef .tc main_arg10) = X10 :=
  (W4_of_ne m ρ c main_arg10 (by decide)).trans (f_arg10_3 m ρ c)

theorem f_arg2_4 : W4 m ρ c (Proc.devRef .tc main_arg2) = X2 :=
  (W4_of_ne m ρ c main_arg2 (by decide)).trans (f_arg2_3 m ρ c)

theorem f_arg12_4 : W4 m ρ c (Proc.devRef .tc main_arg12) = X12 :=
  (W4_of_ne m ρ c main_arg12 (by decide)).trans (f_arg12_3 m ρ c)

theorem f_arg11_4 : W4 m ρ c (Proc.devRef .tc main_arg11) = X11 :=
  (W4_of_ne m ρ c main_arg11 (by decide)).trans (f_arg11_3 m ρ c)

theorem f_arg14_4 : W4 m ρ c (Proc.devRef .tc main_arg14) = X14 :=
  (W4_of_ne m ρ c main_arg14 (by decide)).trans (f_arg14_3 m ρ c)

theorem f_arg13_4 : W4 m ρ c (Proc.devRef .tc main_arg13) = X13 :=
  (W4_of_ne m ρ c main_arg13 (by decide)).trans (f_arg13_3 m ρ c)

theorem f_v1_4 : W4 m ρ c (Proc.devRef .tc main_v1) = Cert.ReferenceIdeal.Read.val_main_v1 (F := Ideal) X1 :=
  (W4_of_ne m ρ c main_v1 (by decide)).trans (f_v1_3 m ρ c)

theorem f_v3_4 : W4 m ρ c (Proc.devRef .tc main_v3) = Cert.ReferenceIdeal.Read.val_main_v3 (F := Ideal) X1 :=
  (W4_of_ne m ρ c main_v3 (by decide)).trans (f_v3_3 m ρ c)

theorem f_v12_4 : W4 m ρ c (Proc.devRef .tc main_v12) = Cert.ReferenceIdeal.Read.val_main_v12 (F := Ideal) X1 :=
  ((W4_arr m ρ c 1).trans (((dat1 (V3 m ρ) c).arrAt_in 1 rfl _).trans (A_eq1 (V3 m ρ) c 1))).trans (f_v12_3 m ρ c)

end Cert.KernelIdeal.Chain

end
-- ==== Proof.Region2.lean ====
/-
  Pallas call 2: a dense layer on tiles of 10000 rows. Each grid point reads rows `t·10000 … t·10000+9999` of the left operand,
  the whole weight matrix and the whole bias row, and writes the same rows of the result. Its tile at `(p, q)` is
  `(∑ k, x (p, k) · W (k, q)) + bias (0, q)`, the whole-array dense layer at row `t·10000 + p`; the 10 tiles cover the
  100000 rows, so the array the call leaves is the dense layer of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the left operand's and the result's row blocks move together, every other
    block index is 0. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- The tile's value at `(p, q)`. -/
theorem pay (x0 : Vec Ideal S10000x128 .f32) (x1 : Vec Ideal S128x128 .f32) (x2 : Vec Ideal S1x128 .f32) (p : Fin 10000) (q : Fin 128) :
    k2_pay1 (F := Ideal) x0 x1 x2 (ix2 p q) = LibAffineTiles.affineAt x0 x1 x2 p q :=
  LibAffineTiles.tile_cast_apply dot_S10000x128_S128x128_S10000x128_1_0_0_1_n_n rfl rfl rfl rfl (fun _ _ => rfl) (fun _ _ => rfl) x0 x1 x2 p q _ _ _

/-- The left operand's block at point `t`, entry `(p, k)`: the array at row `t·10000 + p`. -/
theorem blk0_apply (c : Dev nD) (t : Fin cfg2.N) (p : Fin 10000) (k : Fin 128) (a : Fin 100000)
    (ha : a.val = win2_3.index t (0 : Fin 2) * 10000 + p.val) :
    iblk2 V c 0 t (ix2 p k) = (V c main_v25 : S100000x128.Idx → EReal) (ix2 a k) := by
  obtain ⟨e0, e1, e2, e3, e4, e5, e6, e7⟩ := idx_facts t
  show (V c main_v25 : _ → EReal) (((cfg2.win 0).blk t).view.emb (ix2 p k)) = _
  refine congrArg _ (funext fun d => Fin.ext ?_)
  match d with
  | ⟨0, _⟩ => show win2_0.index t (0 : Fin 2) * 10000 + 1 * p.val = a.val; omega
  | ⟨1, _⟩ => show win2_0.index t (1 : Fin 2) * 128 + 1 * k.val = k.val; omega

/-- The weight matrix's block is the whole matrix. -/
theorem blk1_apply (c : Dev nD) (t : Fin cfg2.N) (k : Fin 128) (q : Fin 128) :
    iblk2 V c 1 t (ix2 k q) = (V c main_arg5 : S128x128.Idx → EReal) (ix2 k q) := by
  obtain ⟨e0, e1, e2, e3, e4, e5, e6, e7⟩ := idx_facts t
  show (V c main_arg5 : _ → EReal) (((cfg2.win 1).blk t).view.emb (ix2 k q)) = _
  refine congrArg _ (funext fun d => Fin.ext ?_)
  match d with
  | ⟨0, _⟩ => show win2_1.index t (0 : Fin 2) * 128 + 1 * k.val = k.val; omega
  | ⟨1, _⟩ => show win2_1.index t (1 : Fin 2) * 128 + 1 * q.val = q.val; omega

/-- The bias row's block is the whole row. -/
theorem blk2_apply (c : Dev nD) (t : Fin cfg2.N) (z : Fin 1) (q : Fin 128) :
    iblk2 V c 2 t (ix2 z q) = (V c main_v26 : S1x128.Idx → EReal) (ix2 z q) := by
  obtain ⟨e0, e1, e2, e3, e4, e5, e6, e7⟩ := idx_facts t
  show (V c main_v26 : _ → EReal) (((cfg2.win 2).blk t).view.emb (ix2 z q)) = _
  refine congrArg _ (funext fun d => Fin.ext ?_)
  match d with
  | ⟨0, _⟩ => show win2_2.index t (0 : Fin 2) * 1 + 1 * z.val = z.val; omega
  | ⟨1, _⟩ => show win2_2.index t (1 : Fin 2) * 128 + 1 * q.val = q.val; omega

/-- What point `t` writes back is its block of the whole-array dense layer. -/
theorem flushed_eq (c : Dev nD) (t : Fin cfg2.N) :
    (dat2 V c).flushed 3 t = ((cfg2.win 3).blk t).view.read (Elt Ideal)
      (LibAffineTiles.affine (A := 100000) (K := 128) (B := 128) (V c main_v25) (V c main_arg5) (V c main_v26)) := by
  show (cfg2.win 3).cut (grid2.coords t) ((dat2 V c).after 3 t) = _
  rw [after2_3]
  unfold out2_3
  rw [View.canon_unit_zero LibBlockRows.zero_offsets]
  simp only [View.ld_unit_zero (S := S10000x128) LibBlockRows.zero_offsets, View.ld_unit_zero (S := S128x128) LibBlockRows.zero_offsets,
    View.ld_unit_zero (S := S1x128) LibBlockRows.zero_offsets]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have hp : p.val < 10000 := p.isLt
  have hemb : ((cfg2.win 3).blk t).view.emb (ix2 p q)
      = ix2 (⟨win2_3.index t (0 : Fin 2) * 10000 + p.val, by omega⟩ : Fin 100000) q := by
    funext d
    apply Fin.ext
    match d with
    | ⟨0, _⟩ => show win2_3.index t (0 : Fin 2) * 10000 + 1 * p.val = win2_3.index t (0 : Fin 2) * 10000 + p.val; omega
    | ⟨1, _⟩ => show win2_3.index t (1 : Fin 2) * 128 + 1 * q.val = q.val; omega
  show k2_pay1 (F := Ideal) (iblk2 V c 0 t) (iblk2 V c 1 t) (iblk2 V c 2 t) (ix2 p q)
    = (LibAffineTiles.affine (A := 100000) (K := 128) (B := 128) (V c main_v25) (V c main_arg5) (V c main_v26)) (((cfg2.win 3).blk t).view.emb (ix2 p q))
  rw [hemb]
  refine (pay _ _ _ p q).trans ?_
  show LibAffineTiles.affineAt (iblk2 V c 0 t) (iblk2 V c 1 t) (iblk2 V c 2 t) p q = LibAffineTiles.affineAt (V c main_v25) (V c main_arg5) (V c main_v26) _ q
  unfold LibAffineTiles.affineAt
  rw [blk2_apply V c t 0 q]
  refine congrArg (· + _) ?_
  refine Finset.sum_congr rfl fun k _ => ?_
  rw [blk0_apply V c t p k ⟨win2_3.index t (0 : Fin 2) * 10000 + p.val, by omega⟩ rfl, blk1_apply V c t k q]

/-- An index of the result array is in point `t`'s block iff its row is in the block's row range. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v27).slice (win2_3.rect t)).set ↔ _
  rw [View.set_slice_whole, Rect.mem_set_unit]
  exact Iff.rfl

/-- Every index of the result array is in the block of the point that owns its row. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The array the call leaves: the dense layer of the arrays it found. -/
theorem final (c : Dev nD) : (dat2 V c).arrAt 3 cfg2.N = LibAffineTiles.affine (A := 100000) (K := 128) (B := 128) (V c main_v25) (V c main_arg5) (V c main_v26) :=
  (dat2 V c).arrAt_eq_of_cover 3 _ (fun t _ => flushed_eq V c t) cover

end Cert.KernelIdeal.Region2

end
-- ==== Proof.Region3.lean ====
/-
  Pallas call 3: the scaled, clamped hyperbolic tangent on tiles of 10000 rows. Each grid point reads rows
  `t·10000 … t·10000+9999` of the aggregate and of the one-column factor, and writes the same rows of the result:
  `tanh (max (agg (r, q) · factor (r, 0)) 0)` at row `r = t·10000 + p`. The 10 tiles cover the 100000 rows, so the array the
  call leaves is that function of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the three row blocks move together, every column block index is 0. -/
theorem idx_facts : ∀ t : Fin cfg3.N,
    win3_0.index t (0 : Fin 2) = win3_2.index t (0 : Fin 2) ∧ win3_0.index t (1 : Fin 2) = 0
    ∧ win3_1.index t (0 : Fin 2) = win3_2.index t (0 : Fin 2) ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- The tile's value at `(p, q)`. -/
theorem pay (x0 : Vec Ideal S10000x128 .f32) (x1 : Vec Ideal S10000x1 .f32) (p : Fin 10000) (q : Fin 128) :
    k3_pay1 (F := Ideal) x0 x1 (ix2 p q) = LibAffineTiles.squashAt x0 x1 0x00000000#32 p q :=
  LibAffineTiles.squash_tile_apply x0 x1 0x00000000#32 p q _ _ _

/-- The aggregate's block at point `t`, entry `(p, q)`: the array at row `t·10000 + p`. -/
theorem blk0_apply (c : Dev nD) (t : Fin cfg3.N) (p : Fin 10000) (q : Fin 128) (a : Fin 100000)
    (ha : a.val = win3_2.index t (0 : Fin 2) * 10000 + p.val) :
    iblk3 V c 0 t (ix2 p q) = (V c main_v37 : S100000x128.Idx → EReal) (ix2 a q) := by
  obtain ⟨e0, e1, e2, e3, e4, e5⟩ := idx_facts t
  show (V c main_v37 : _ → EReal) (((cfg3.win 0).blk t).view.emb (ix2 p q)) = _
  refine congrArg _ (funext fun d => Fin.ext ?_)
  match d with
  | ⟨0, _⟩ => show win3_0.index t (0 : Fin 2) * 10000 + 1 * p.val = a.val; omega
  | ⟨1, _⟩ => show win3_0.index t (1 : Fin 2) * 128 + 1 * q.val = q.val; omega

/-- The factor column's block at point `t`, entry `(p, 0)`: the column at row `t·10000 + p`. -/
theorem blk1_apply (c : Dev nD) (t : Fin cfg3.N) (p : Fin 10000) (z : Fin 1) (a : Fin 100000)
    (ha : a.val = win3_2.index t (0 : Fin 2) * 10000 + p.val) :
    iblk3 V c 1 t (ix2 p z) = (V c main_v12 : S100000x1.Idx → EReal) (ix2 a z) := by
  obtain ⟨e0, e1, e2, e3, e4, e5⟩ := idx_facts t
  show (V c main_v12 : _ → EReal) (((cfg3.win 1).blk t).view.emb (ix2 p z)) = _
  refine congrArg _ (funext fun d => Fin.ext ?_)
  match d with
  | ⟨0, _⟩ => show win3_1.index t (0 : Fin 2) * 10000 + 1 * p.val = a.val; omega
  | ⟨1, _⟩ => show win3_1.index t (1 : Fin 2) * 1 + 1 * z.val = z.val; omega

/-- What point `t` writes back is its block of the whole-array function. -/
theorem flushed_eq (c : Dev nD) (t : Fin cfg3.N) :
    (dat3 V c).flushed 2 t = ((cfg3.win 2).blk t).view.read (Elt Ideal)
      (LibAffineTiles.squash (A := 100000) (B := 128) (V c main_v37) (V c main_v12) 0x00000000#32) := by
  show (cfg3.win 2).cut (grid3.coords t) ((dat3 V c).after 2 t) = _
  rw [after3_2]
  unfold out3_2
  rw [View.canon_unit_zero LibBlockRows.zero_offsets]
  simp only [View.ld_unit_zero (S := S10000x128) LibBlockRows.zero_offsets, View.ld_unit_zero (S := S10000x1) LibBlockRows.zero_offsets]
  obtain ⟨e0, e1, e2, e3, e4, e5⟩ := idx_facts t
  funext j
  obtain ⟨p, q, rfl⟩ : ∃ (p : Fin 10000) (q : Fin 128), j = ix2 p q := ⟨j 0, j 1, eq_ix2 j⟩
  have hp : p.val < 10000 := p.isLt
  have hemb : ((cfg3.win 2).blk t).view.emb (ix2 p q)
      = ix2 (⟨win3_2.index t (0 : Fin 2) * 10000 + p.val, by omega⟩ : Fin 100000) q := by
    funext d
    apply Fin.ext
    match d with
    | ⟨0, _⟩ => show win3_2.index t (0 : Fin 2) * 10000 + 1 * p.val = win3_2.index t (0 : Fin 2) * 10000 + p.val; omega
    | ⟨1, _⟩ => show win3_2.index t (1 : Fin 2) * 128 + 1 * q.val = q.val; omega
  show k3_pay1 (F := Ideal) (iblk3 V c 0 t) (iblk3 V c 1 t) (ix2 p q)
    = (LibAffineTiles.squash (A := 100000) (B := 128) (V c main_v37) (V c main_v12) 0x00000000#32) (((cfg3.win 2).blk t).view.emb (ix2 p q))
  rw [hemb]
  refine (pay _ _ p q).trans ?_
  show LibAffineTiles.squashAt (iblk3 V c 0 t) (iblk3 V c 1 t) _ p q = LibAffineTiles.squashAt (V c main_v37) (V c main_v12) _ _ q
  unfold LibAffineTiles.squashAt
  rw [blk0_apply V c t p q ⟨win3_2.index t (0 : Fin 2) * 10000 + p.val, by omega⟩ rfl,
    blk1_apply V c t p 0 ⟨win3_2.index t (0 : Fin 2) * 10000 + p.val, by omega⟩ rfl]

/-- An index of the result array is in point `t`'s block iff its row is in the block's row range. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v38).slice (win3_2.rect t)).set ↔ _
  rw [View.set_slice_whole, Rect.mem_set_unit]
  exact Iff.rfl

/-- Every index of the result array is in the block of the point that owns its row. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The array the call leaves: that function of the arrays it found. -/
theorem final (c : Dev nD) : (dat3 V c).arrAt 2 cfg3.N = LibAffineTiles.squash (A := 100000) (B := 128) (V c main_v37) (V c main_v12) 0x00000000#32 :=
  (dat3 V c).arrAt_eq_of_cover 2 _ (fun t _ => flushed_eq V c t) cover

end Cert.KernelIdeal.Region3

end
-- ==== Proof.ChainB.lean ====
/-
  The idealized kernel's buffer contents at the boundaries of its run, read against the reference's stages: boundaries 5 to 8 (layer 2).
  A buffer that no operation of a host stretch and no window of a pallas call writes keeps its contents; a stretch's result is
  its operations' value of the contents before it; a call's result array is the whole-array function its region module proves,
  which is the reference's stage of the same operands.
-/
import proofs.«178763_j66348654789163_1_alg».proof.Proof.ChainA
import proofs.«178763_j66348654789163_1_alg».proof.Proof.Region2
import proofs.«178763_j66348654789163_1_alg».proof.Proof.Region3

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option quotPrecheck false

local notation "X0" => (m ((c : Thread nD τ).loc main_arg0))
local notation "X1" => (m ((c : Thread nD τ).loc main_arg1))
local notation "X2" => (m ((c : Thread nD τ).loc main_arg2))
local notation "X3" => (m ((c : Thread nD τ).loc main_arg3))
local notation "X4" => (m ((c : Thread nD τ).loc main_arg4))
local notation "X5" => (m ((c : Thread nD τ).loc main_arg5))
local notation "X6" => (m ((c : Thread nD τ).loc main_arg6))
local notation "X7" => (m ((c : Thread nD τ).loc main_arg7))
local notation "X8" => (m ((c : Thread nD τ).loc main_arg8))
local notation "X9" => (m ((c : Thread nD τ).loc main_arg9))
local notation "X10" => (m ((c : Thread nD τ).loc main_arg10))
local notation "X11" => (m ((c : Thread nD τ).loc main_arg11))
local notation "X12" => (m ((c : Thread nD τ).loc main_arg12))
local notation "X13" => (m ((c : Thread nD τ).loc main_arg13))
local notation "X14" => (m ((c : Thread nD τ).loc main_arg14))

/-! ## Boundary 5: after host stretch 2 -/

set_option maxHeartbeats 2000000 in
theorem f_v26_5 : W5 m ρ c (Proc.devRef .tc main_v26) = shapeCast S1x128 X6 shapeCasts_S128_S1x128 := by
  show StableHlo.after hostOps2 (W4 m ρ c) (Proc.devRef .tc main_v26) = _
  after_results_simp
  rw [f_arg6_4 m ρ c]
  all_goals rfl

theorem f_arg5_5 : W5 m ρ c (Proc.devRef .tc main_arg5) = X5 := by
  show StableHlo.after hostOps2 (W4 m ρ c) (Proc.devRef .tc main_arg5) = _
  after_results
  all_goals exact f_arg5_4 m ρ c

theorem f_arg7_5 : W5 m ρ c (Proc.devRef .tc main_arg7) = X7 := by
  show StableHlo.after hostOps2 (W4 m ρ c) (Proc.devRef .tc main_arg7) = _
  after_results
  all_goals exact f_arg7_4 m ρ c

theorem f_arg8_5 : W5 m ρ c (Proc.devRef .tc main_arg8) = X8 := by
  show StableHlo.after hostOps2 (W4 m ρ c) (Proc.devRef .tc main_arg8) = _
  after_results
  all_goals exact f_arg8_4 m ρ c

theorem f_arg9_5 : W5 m ρ c (Proc.devRef .tc main_arg9) = X9 := by
  show StableHlo.after hostOps2 (W4 m ρ c) (Proc.devRef .tc main_arg9) = _
  after_results
  all_goals exact f_arg9_4 m ρ c

theorem f_arg10_5 : W5 m ρ c (Proc.devRef .tc main_arg10) = X10 := by
  show StableHlo.after hostOps2 (W4 m ρ c) (Proc.devRef .tc main_arg10) = _
  after_results
  all_goals exact f_arg10_4 m ρ c

theorem f_arg2_5 : W5 m ρ c (Proc.devRef .tc main_arg2) = X2 := by
  show StableHlo.after hostOps2 (W4 m ρ c) (Proc.devRef .tc main_arg2) = _
  after_results
  all_goals exact f_arg2_4 m ρ c

theorem f_arg12_5 : W5 m ρ c (Proc.devRef .tc main_arg12) = X12 := by
  show StableHlo.after hostOps2 (W4 m ρ c) (Proc.devRef .tc main_arg12) = _
  after_results
  all_goals exact f_arg12_4 m ρ c

theorem f_arg11_5 : W5 m ρ c (Proc.devRef .tc main_arg11) = X11 := by
  show StableHlo.after hostOps2 (W4 m ρ c) (Proc.devRef .tc main_arg11) = _
  after_results
  all_goals exact f_arg11_4 m ρ c

theorem f_arg14_5 : W5 m ρ c (Proc.devRef .tc main_arg14) = X14 := by
  show StableHlo.after hostOps2 (W4 m ρ c) (Proc.devRef .tc main_arg14) = _
  after_results
  all_goals exact f_arg14_4 m ρ c

theorem f_arg13_5 : W5 m ρ c (Proc.devRef .tc main_arg13) = X13 := by
  show StableHlo.after hostOps2 (W4 m ρ c) (Proc.devRef .tc main_arg13) = _
  after_results
  all_goals exact f_arg13_4 m ρ c

theorem f_v1_5 : W5 m ρ c (Proc.devRef .tc main_v1) = Cert.ReferenceIdeal.Read.val_main_v1 (F := Ideal) X1 := by
  show StableHlo.after hostOps2 (W4 m ρ c) (Proc.devRef .tc main_v1) = _
  after_results
  all_goals exact f_v1_4 m ρ c

theorem f_v3_5 : W5 m ρ c (Proc.devRef .tc main_v3) = Cert.ReferenceIdeal.Read.val_main_v3 (F := Ideal) X1 := by
  show StableHlo.after hostOps2 (W4 m ρ c) (Proc.devRef .tc main_v3) = _
  after_results
  all_goals exact f_v3_4 m ρ c

theorem f_v12_5 : W5 m ρ c (Proc.devRef .tc main_v12) = Cert.ReferenceIdeal.Read.val_main_v12 (F := Ideal) X1 := by
  show StableHlo.after hostOps2 (W4 m ρ c) (Proc.devRef .tc main_v12) = _
  after_results
  all_goals exact f_v12_4 m ρ c

theorem f_v25_5 : W5 m ρ c (Proc.devRef .tc main_v25) = Cert.ReferenceIdeal.Read.val_main_v30 (F := Ideal) X0 X1 X3 X4 := by
  show StableHlo.after hostOps2 (W4 m ρ c) (Proc.devRef .tc main_v25) = _
  after_results
  all_goals exact f_v25_4 m ρ c

/-! ## Boundary 6: after pallas call 2 -/

theorem f_v27_6 : W6 m ρ c (Proc.devRef .tc main_v27) = Cert.ReferenceIdeal.Read.val_main_v34 (F := Ideal) X0 X1 X3 X4 X5 X6 := by
  refine (W6_arr m ρ c 3).trans ((Region2.final (V5 m ρ) c).trans ?_)
  show LibAffineTiles.affine (A := 100000) (K := 128) (B := 128) (W5 m ρ c (Proc.devRef .tc main_v25)) (W5 m ρ c (Proc.devRef .tc main_arg5)) (W5 m ρ c (Proc.devRef .tc main_v26)) = _
  rw [f_v25_5 m ρ c, f_arg5_5 m ρ c, f_v26_5 m ρ c]
  exact (Cert.ReferenceIdeal.Stages.dense2 _ _ _ _ _ _ _).symm

theorem f_arg7_6 : W6 m ρ c (Proc.devRef .tc main_arg7) = X7 :=
  (W6_of_ne m ρ c main_arg7 (by decide)).trans (f_arg7_5 m ρ c)

theorem f_arg8_6 : W6 m ρ c (Proc.devRef .tc main_arg8) = X8 :=
  (W6_of_ne m ρ c main_arg8 (by decide)).trans (f_arg8_5 m ρ c)

theorem f_arg9_6 : W6 m ρ c (Proc.devRef .tc main_arg9) = X9 :=
  (W6_of_ne m ρ c main_arg9 (by decide)).trans (f_arg9_5 m ρ c)

theorem f_arg10_6 : W6 m ρ c (Proc.devRef .tc main_arg10) = X10 :=
  (W6_of_ne m ρ c main_arg10 (by decide)).trans (f_arg10_5 m ρ c)

theorem f_arg2_6 : W6 m ρ c (Proc.devRef .tc main_arg2) = X2 :=
  (W6_of_ne m ρ c main_arg2 (by decide)).trans (f_arg2_5 m ρ c)

theorem f_arg12_6 : W6 m ρ c (Proc.devRef .tc main_arg12) = X12 :=
  (W6_of_ne m ρ c main_arg12 (by decide)).trans (f_arg12_5 m ρ c)

theorem f_arg11_6 : W6 m ρ c (Proc.devRef .tc main_arg11) = X11 :=
  (W6_of_ne m ρ c main_arg11 (by decide)).trans (f_arg11_5 m ρ c)

theorem f_arg14_6 : W6 m ρ c (Proc.devRef .tc main_arg14) = X14 :=
  (W6_of_ne m ρ c main_arg14 (by decide)).trans (f_arg14_5 m ρ c)

theorem f_arg13_6 : W6 m ρ c (Proc.devRef .tc main_arg13) = X13 :=
  (W6_of_ne m ρ c main_arg13 (by decide)).trans (f_arg13_5 m ρ c)

theorem f_v1_6 : W6 m ρ c (Proc.devRef .tc main_v1) = Cert.ReferenceIdeal.Read.val_main_v1 (F := Ideal) X1 :=
  (W6_of_ne m ρ c main_v1 (by decide)).trans (f_v1_5 m ρ c)

theorem f_v3_6 : W6 m ρ c (Proc.devRef .tc main_v3) = Cert.ReferenceIdeal.Read.val_main_v3 (F := Ideal) X1 :=
  (W6_of_ne m ρ c main_v3 (by decide)).trans (f_v3_5 m ρ c)

theorem f_v12_6 : W6 m ρ c (Proc.devRef .tc main_v12) = Cert.ReferenceIdeal.Read.val_main_v12 (F := Ideal) X1 :=
  (W6_of_ne m ρ c main_v12 (by decide)).trans (f_v12_5 m ρ c)

/-! ## Boundary 7: after host stretch 3 -/

set_option maxHeartbeats 2000000 in
theorem f_v37_7 : W7 m ρ c (Proc.devRef .tc main_v37) = Cert.ReferenceIdeal.Read.val_main_v44 (F := Ideal) X0 X1 X3 X4 X5 X6 := by
  show StableHlo.after hostOps3 (W6 m ρ c) (Proc.devRef .tc main_v37) = _
  after_results_simp
  rw [f_v27_6 m ρ c, f_v1_6 m ρ c, f_v3_6 m ρ c]
  all_goals rfl

theorem f_arg7_7 : W7 m ρ c (Proc.devRef .tc main_arg7) = X7 := by
  show StableHlo.after hostOps3 (W6 m ρ c) (Proc.devRef .tc main_arg7) = _
  after_results
  all_goals exact f_arg7_6 m ρ c

theorem f_arg8_7 : W7 m ρ c (Proc.devRef .tc main_arg8) = X8 := by
  show StableHlo.after hostOps3 (W6 m ρ c) (Proc.devRef .tc main_arg8) = _
  after_results
  all_goals exact f_arg8_6 m ρ c

theorem f_arg9_7 : W7 m ρ c (Proc.devRef .tc main_arg9) = X9 := by
  show StableHlo.after hostOps3 (W6 m ρ c) (Proc.devRef .tc main_arg9) = _
  after_results
  all_goals exact f_arg9_6 m ρ c

theorem f_arg10_7 : W7 m ρ c (Proc.devRef .tc main_arg10) = X10 := by
  show StableHlo.after hostOps3 (W6 m ρ c) (Proc.devRef .tc main_arg10) = _
  after_results
  all_goals exact f_arg10_6 m ρ c

theorem f_arg2_7 : W7 m ρ c (Proc.devRef .tc main_arg2) = X2 := by
  show StableHlo.after hostOps3 (W6 m ρ c) (Proc.devRef .tc main_arg2) = _
  after_results
  all_goals exact f_arg2_6 m ρ c

theorem f_arg12_7 : W7 m ρ c (Proc.devRef .tc main_arg12) = X12 := by
  show StableHlo.after hostOps3 (W6 m ρ c) (Proc.devRef .tc main_arg12) = _
  after_results
  all_goals exact f_arg12_6 m ρ c

theorem f_arg11_7 : W7 m ρ c (Proc.devRef .tc main_arg11) = X11 := by
  show StableHlo.after hostOps3 (W6 m ρ c) (Proc.devRef .tc main_arg11) = _
  after_results
  all_goals exact f_arg11_6 m ρ c

theorem f_arg14_7 : W7 m ρ c (Proc.devRef .tc main_arg14) = X14 := by
  show StableHlo.after hostOps3 (W6 m ρ c) (Proc.devRef .tc main_arg14) = _
  after_results
  all_goals exact f_arg14_6 m ρ c

theorem f_arg13_7 : W7 m ρ c (Proc.devRef .tc main_arg13) = X13 := by
  show StableHlo.after hostOps3 (W6 m ρ c) (Proc.devRef .tc main_arg13) = _
  after_results
  all_goals exact f_arg13_6 m ρ c

theorem f_v1_7 : W7 m ρ c (Proc.devRef .tc main_v1) = Cert.ReferenceIdeal.Read.val_main_v1 (F := Ideal) X1 := by
  show StableHlo.after hostOps3 (W6 m ρ c) (Proc.devRef .tc main_v1) = _
  after_results
  all_goals exact f_v1_6 m ρ c

theorem f_v3_7 : W7 m ρ c (Proc.devRef .tc main_v3) = Cert.ReferenceIdeal.Read.val_main_v3 (F := Ideal) X1 := by
  show StableHlo.after hostOps3 (W6 m ρ c) (Proc.devRef .tc main_v3) = _
  after_results
  all_goals exact f_v3_6 m ρ c

theorem f_v12_7 : W7 m ρ c (Proc.devRef .tc main_v12) = Cert.ReferenceIdeal.Read.val_main_v12 (F := Ideal) X1 := by
  show StableHlo.after hostOps3 (W6 m ρ c) (Proc.devRef .tc main_v12) = _
  after_results
  all_goals exact f_v12_6 m ρ c

/-! ## Boundary 8: after pallas call 3 -/

theorem f_v38_8 : W8 m ρ c (Proc.devRef .tc main_v38) = Cert.ReferenceIdeal.Read.val_main_v48 (F := Ideal) X0 X1 X3 X4 X5 X6 := by
  refine (W8_arr m ρ c 2).trans ((Region3.final (V7 m ρ) c).trans ?_)
  show LibAffineTiles.squash (A := 100000) (B := 128) (W7 m ρ c (Proc.devRef .tc main_v37)) (W7 m ρ c (Proc.devRef .tc main_v12)) 0x00000000#32 = _
  rw [f_v37_7 m ρ c, f_v12_7 m ρ c]
  exact (Cert.ReferenceIdeal.Stages.act2 _ _ _ _ _ _).symm

theorem f_arg7_8 : W8 m ρ c (Proc.devRef .tc main_arg7) = X7 :=
  (W8_of_ne m ρ c main_arg7 (by decide)).trans (f_arg7_7 m ρ c)

theorem f_arg8_8 : W8 m ρ c (Proc.devRef .tc main_arg8) = X8 :=
  (W8_of_ne m ρ c main_arg8 (by decide)).trans (f_arg8_7 m ρ c)

theorem f_arg9_8 : W8 m ρ c (Proc.devRef .tc main_arg9) = X9 :=
  (W8_of_ne m ρ c main_arg9 (by decide)).trans (f_arg9_7 m ρ c)

theorem f_arg10_8 : W8 m ρ c (Proc.devRef .tc main_arg10) = X10 :=
  (W8_of_ne m ρ c main_arg10 (by decide)).trans (f_arg10_7 m ρ c)

theorem f_arg2_8 : W8 m ρ c (Proc.devRef .tc main_arg2) = X2 :=
  (W8_of_ne m ρ c main_arg2 (by decide)).trans (f_arg2_7 m ρ c)

theorem f_arg12_8 : W8 m ρ c (Proc.devRef .tc main_arg12) = X12 :=
  (W8_of_ne m ρ c main_arg12 (by decide)).trans (f_arg12_7 m ρ c)

theorem f_arg11_8 : W8 m ρ c (Proc.devRef .tc main_arg11) = X11 :=
  (W8_of_ne m ρ c main_arg11 (by decide)).trans (f_arg11_7 m ρ c)

theorem f_arg14_8 : W8 m ρ c (Proc.devRef .tc main_arg14) = X14 :=
  (W8_of_ne m ρ c main_arg14 (by decide)).trans (f_arg14_7 m ρ c)

theorem f_arg13_8 : W8 m ρ c (Proc.devRef .tc main_arg13) = X13 :=
  (W8_of_ne m ρ c main_arg13 (by decide)).trans (f_arg13_7 m ρ c)

theorem f_v1_8 : W8 m ρ c (Proc.devRef .tc main_v1) = Cert.ReferenceIdeal.Read.val_main_v1 (F := Ideal) X1 :=
  (W8_of_ne m ρ c main_v1 (by decide)).trans (f_v1_7 m ρ c)

theorem f_v3_8 : W8 m ρ c (Proc.devRef .tc main_v3) = Cert.ReferenceIdeal.Read.val_main_v3 (F := Ideal) X1 :=
  (W8_of_ne m ρ c main_v3 (by decide)).trans (f_v3_7 m ρ c)

theorem f_v12_8 : W8 m ρ c (Proc.devRef .tc main_v12) = Cert.ReferenceIdeal.Read.val_main_v12 (F := Ideal) X1 :=
  ((W8_arr m ρ c 1).trans (((dat3 (V7 m ρ) c).arrAt_in 1 rfl _).trans (A_eq3 (V7 m ρ) c 1))).trans (f_v12_7 m ρ c)

end Cert.KernelIdeal.Chain

end
-- ==== Proof.Region4.lean ====
/-
  Pallas call 4: a dense layer on tiles of 10000 rows. Each grid point reads rows `t·10000 … t·10000+9999` of the left operand,
  the whole weight matrix and the whole bias row, and writes the same rows of the result. Its tile at `(p, q)` is
  `(∑ k, x (p, k) · W (k, q)) + bias (0, q)`, the whole-array dense layer at row `t·10000 + p`; the 10 tiles cover the
  100000 rows, so the array the call leaves is the dense layer of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the left operand's and the result's row blocks move together, every other
    block index is 0. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- The tile's value at `(p, q)`. -/
theorem pay (x0 : Vec Ideal S10000x128 .f32) (x1 : Vec Ideal S128x128 .f32) (x2 : Vec Ideal S1x128 .f32) (p : Fin 10000) (q : Fin 128) :
    k4_pay1 (F := Ideal) x0 x1 x2 (ix2 p q) = LibAffineTiles.affineAt x0 x1 x2 p q :=
  LibAffineTiles.tile_cast_apply dot_S10000x128_S128x128_S10000x128_1_0_0_1_n_n rfl rfl rfl rfl (fun _ _ => rfl) (fun _ _ => rfl) x0 x1 x2 p q _ _ _

/-- The left operand's block at point `t`, entry `(p, k)`: the array at row `t·10000 + p`. -/
theorem blk0_apply (c : Dev nD) (t : Fin cfg4.N) (p : Fin 10000) (k : Fin 128) (a : Fin 100000)
    (ha : a.val = win4_3.index t (0 : Fin 2) * 10000 + p.val) :
    iblk4 V c 0 t (ix2 p k) = (V c main_v38 : S100000x128.Idx → EReal) (ix2 a k) := by
  obtain ⟨e0, e1, e2, e3, e4, e5, e6, e7⟩ := idx_facts t
  show (V c main_v38 : _ → EReal) (((cfg4.win 0).blk t).view.emb (ix2 p k)) = _
  refine congrArg _ (funext fun d => Fin.ext ?_)
  match d with
  | ⟨0, _⟩ => show win4_0.index t (0 : Fin 2) * 10000 + 1 * p.val = a.val; omega
  | ⟨1, _⟩ => show win4_0.index t (1 : Fin 2) * 128 + 1 * k.val = k.val; omega

/-- The weight matrix's block is the whole matrix. -/
theorem blk1_apply (c : Dev nD) (t : Fin cfg4.N) (k : Fin 128) (q : Fin 128) :
    iblk4 V c 1 t (ix2 k q) = (V c main_arg7 : S128x128.Idx → EReal) (ix2 k q) := by
  obtain ⟨e0, e1, e2, e3, e4, e5, e6, e7⟩ := idx_facts t
  show (V c main_arg7 : _ → EReal) (((cfg4.win 1).blk t).view.emb (ix2 k q)) = _
  refine congrArg _ (funext fun d => Fin.ext ?_)
  match d with
  | ⟨0, _⟩ => show win4_1.index t (0 : Fin 2) * 128 + 1 * k.val = k.val; omega
  | ⟨1, _⟩ => show win4_1.index t (1 : Fin 2) * 128 + 1 * q.val = q.val; omega

/-- The bias row's block is the whole row. -/
theorem blk2_apply (c : Dev nD) (t : Fin cfg4.N) (z : Fin 1) (q : Fin 128) :
    iblk4 V c 2 t (ix2 z q) = (V c main_v39 : S1x128.Idx → EReal) (ix2 z q) := by
  obtain ⟨e0, e1, e2, e3, e4, e5, e6, e7⟩ := idx_facts t
  show (V c main_v39 : _ → EReal) (((cfg4.win 2).blk t).view.emb (ix2 z q)) = _
  refine congrArg _ (funext fun d => Fin.ext ?_)
  match d with
  | ⟨0, _⟩ => show win4_2.index t (0 : Fin 2) * 1 + 1 * z.val = z.val; omega
  | ⟨1, _⟩ => show win4_2.index t (1 : Fin 2) * 128 + 1 * q.val = q.val; omega

/-- What point `t` writes back is its block of the whole-array dense layer. -/
theorem flushed_eq (c : Dev nD) (t : Fin cfg4.N) :
    (dat4 V c).flushed 3 t = ((cfg4.win 3).blk t).view.read (Elt Ideal)
      (LibAffineTiles.affine (A := 100000) (K := 128) (B := 128) (V c main_v38) (V c main_arg7) (V c main_v39)) := by
  show (cfg4.win 3).cut (grid4.coords t) ((dat4 V c).after 3 t) = _
  rw [after4_3]
  unfold out4_3
  rw [View.canon_unit_zero LibBlockRows.zero_offsets]
  simp only [View.ld_unit_zero (S := S10000x128) LibBlockRows.zero_offsets, View.ld_unit_zero (S := S128x128) LibBlockRows.zero_offsets,
    View.ld_unit_zero (S := S1x128) LibBlockRows.zero_offsets]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have hp : p.val < 10000 := p.isLt
  have hemb : ((cfg4.win 3).blk t).view.emb (ix2 p q)
      = ix2 (⟨win4_3.index t (0 : Fin 2) * 10000 + p.val, by omega⟩ : Fin 100000) q := by
    funext d
    apply Fin.ext
    match d with
    | ⟨0, _⟩ => show win4_3.index t (0 : Fin 2) * 10000 + 1 * p.val = win4_3.index t (0 : Fin 2) * 10000 + p.val; omega
    | ⟨1, _⟩ => show win4_3.index t (1 : Fin 2) * 128 + 1 * q.val = q.val; omega
  show k4_pay1 (F := Ideal) (iblk4 V c 0 t) (iblk4 V c 1 t) (iblk4 V c 2 t) (ix2 p q)
    = (LibAffineTiles.affine (A := 100000) (K := 128) (B := 128) (V c main_v38) (V c main_arg7) (V c main_v39)) (((cfg4.win 3).blk t).view.emb (ix2 p q))
  rw [hemb]
  refine (pay _ _ _ p q).trans ?_
  show LibAffineTiles.affineAt (iblk4 V c 0 t) (iblk4 V c 1 t) (iblk4 V c 2 t) p q = LibAffineTiles.affineAt (V c main_v38) (V c main_arg7) (V c main_v39) _ q
  unfold LibAffineTiles.affineAt
  rw [blk2_apply V c t 0 q]
  refine congrArg (· + _) ?_
  refine Finset.sum_congr rfl fun k _ => ?_
  rw [blk0_apply V c t p k ⟨win4_3.index t (0 : Fin 2) * 10000 + p.val, by omega⟩ rfl, blk1_apply V c t k q]

/-- An index of the result array is in point `t`'s block iff its row is in the block's row range. -/
theorem mem_blk (t : Fin cfg4.N) (i : S100000x128.Idx) :
    i ∈ ((cfg4.win 3).blk t).view.set ↔ ∀ a : Fin 2, win4_3.index t a * S10000x128.size a ≤ (i a).val ∧ (i a).val < win4_3.index t a * S10000x128.size a + S10000x128.size a := by
  show i ∈ ((View.whole main_v40).slice (win4_3.rect t)).set ↔ _
  rw [View.set_slice_whole, Rect.mem_set_unit]
  exact Iff.rfl

/-- Every index of the result array is in the block of the point that owns its row. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 128 ≤ (i 1).val ∧ (i 1).val < win4_3.index t (1 : Fin 2) * 128 + 128; omega

/-- The array the call leaves: the dense layer of the arrays it found. -/
theorem final (c : Dev nD) : (dat4 V c).arrAt 3 cfg4.N = LibAffineTiles.affine (A := 100000) (K := 128) (B := 128) (V c main_v38) (V c main_arg7) (V c main_v39) :=
  (dat4 V c).arrAt_eq_of_cover 3 _ (fun t _ => flushed_eq V c t) cover

end Cert.KernelIdeal.Region4

end
-- ==== Proof.Region5.lean ====
/-
  Pallas call 5: the scaled, clamped hyperbolic tangent on tiles of 10000 rows. Each grid point reads rows
  `t·10000 … t·10000+9999` of the aggregate and of the one-column factor, and writes the same rows of the result:
  `tanh (max (agg (r, q) · factor (r, 0)) 0)` at row `r = t·10000 + p`. The 10 tiles cover the 100000 rows, so the array the
  call leaves is that function of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the three row blocks move together, every column block index is 0. -/
theorem idx_facts : ∀ t : Fin cfg5.N,
    win5_0.index t (0 : Fin 2) = win5_2.index t (0 : Fin 2) ∧ win5_0.index t (1 : Fin 2) = 0
    ∧ win5_1.index t (0 : Fin 2) = win5_2.index t (0 : Fin 2) ∧ win5_1.index t (1 : Fin 2) = 0
    ∧ win5_2.index t (1 : Fin 2) = 0 ∧ win5_2.index t (0 : Fin 2) ≤ 9 :=
  (by decide +kernel : ∀ t : Fin grid5.N, _)

/-- Every row block is some point's. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- The tile's value at `(p, q)`. -/
theorem pay (x0 : Vec Ideal S10000x128 .f32) (x1 : Vec Ideal S10000x1 .f32) (p : Fin 10000) (q : Fin 128) :
    k5_pay1 (F := Ideal) x0 x1 (ix2 p q) = LibAffineTiles.squashAt x0 x1 0x00000000#32 p q :=
  LibAffineTiles.squash_tile_apply x0 x1 0x00000000#32 p q _ _ _

/-- The aggregate's block at point `t`, entry `(p, q)`: the array at row `t·10000 + p`. -/
theorem blk0_apply (c : Dev nD) (t : Fin cfg5.N) (p : Fin 10000) (q : Fin 128) (a : Fin 100000)
    (ha : a.val = win5_2.index t (0 : Fin 2) * 10000 + p.val) :
    iblk5 V c 0 t (ix2 p q) = (V c main_v50 : S100000x128.Idx → EReal) (ix2 a q) := by
  obtain ⟨e0, e1, e2, e3, e4, e5⟩ := idx_facts t
  show (V c main_v50 : _ → EReal) (((cfg5.win 0).blk t).view.emb (ix2 p q)) = _
  refine congrArg _ (funext fun d => Fin.ext ?_)
  match d with
  | ⟨0, _⟩ => show win5_0.index t (0 : Fin 2) * 10000 + 1 * p.val = a.val; omega
  | ⟨1, _⟩ => show win5_0.index t (1 : Fin 2) * 128 + 1 * q.val = q.val; omega

/-- The factor column's block at point `t`, entry `(p, 0)`: the column at row `t·10000 + p`. -/
theorem blk1_apply (c : Dev nD) (t : Fin cfg5.N) (p : Fin 10000) (z : Fin 1) (a : Fin 100000)
    (ha : a.val = win5_2.index t (0 : Fin 2) * 10000 + p.val) :
    iblk5 V c 1 t (ix2 p z) = (V c main_v12 : S100000x1.Idx → EReal) (ix2 a z) := by
  obtain ⟨e0, e1, e2, e3, e4, e5⟩ := idx_facts t
  show (V c main_v12 : _ → EReal) (((cfg5.win 1).blk t).view.emb (ix2 p z)) = _
  refine congrArg _ (funext fun d => Fin.ext ?_)
  match d with
  | ⟨0, _⟩ => show win5_1.index t (0 : Fin 2) * 10000 + 1 * p.val = a.val; omega
  | ⟨1, _⟩ => show win5_1.index t (1 : Fin 2) * 1 + 1 * z.val = z.val; omega

/-- What point `t` writes back is its block of the whole-array function. -/
theorem flushed_eq (c : Dev nD) (t : Fin cfg5.N) :
    (dat5 V c).flushed 2 t = ((cfg5.win 2).blk t).view.read (Elt Ideal)
      (LibAffineTiles.squash (A := 100000) (B := 128) (V c main_v50) (V c main_v12) 0x00000000#32) := by
  show (cfg5.win 2).cut (grid5.coords t) ((dat5 V c).after 2 t) = _
  rw [after5_2]
  unfold out5_2
  rw [View.canon_unit_zero LibBlockRows.zero_offsets]
  simp only [View.ld_unit_zero (S := S10000x128) LibBlockRows.zero_offsets, View.ld_unit_zero (S := S10000x1) LibBlockRows.zero_offsets]
  obtain ⟨e0, e1, e2, e3, e4, e5⟩ := idx_facts t
  funext j
  obtain ⟨p, q, rfl⟩ : ∃ (p : Fin 10000) (q : Fin 128), j = ix2 p q := ⟨j 0, j 1, eq_ix2 j⟩
  have hp : p.val < 10000 := p.isLt
  have hemb : ((cfg5.win 2).blk t).view.emb (ix2 p q)
      = ix2 (⟨win5_2.index t (0 : Fin 2) * 10000 + p.val, by omega⟩ : Fin 100000) q := by
    funext d
    apply Fin.ext
    match d with
    | ⟨0, _⟩ => show win5_2.index t (0 : Fin 2) * 10000 + 1 * p.val = win5_2.index t (0 : Fin 2) * 10000 + p.val; omega
    | ⟨1, _⟩ => show win5_2.index t (1 : Fin 2) * 128 + 1 * q.val = q.val; omega
  show k5_pay1 (F := Ideal) (iblk5 V c 0 t) (iblk5 V c 1 t) (ix2 p q)
    = (LibAffineTiles.squash (A := 100000) (B := 128) (V c main_v50) (V c main_v12) 0x00000000#32) (((cfg5.win 2).blk t).view.emb (ix2 p q))
  rw [hemb]
  refine (pay _ _ p q).trans ?_
  show LibAffineTiles.squashAt (iblk5 V c 0 t) (iblk5 V c 1 t) _ p q = LibAffineTiles.squashAt (V c main_v50) (V c main_v12) _ _ q
  unfold LibAffineTiles.squashAt
  rw [blk0_apply V c t p q ⟨win5_2.index t (0 : Fin 2) * 10000 + p.val, by omega⟩ rfl,
    blk1_apply V c t p 0 ⟨win5_2.index t (0 : Fin 2) * 10000 + p.val, by omega⟩ rfl]

/-- An index of the result array is in point `t`'s block iff its row is in the block's row range. -/
theorem mem_blk (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v51).slice (win5_2.rect t)).set ↔ _
  rw [View.set_slice_whole, Rect.mem_set_unit]
  exact Iff.rfl

/-- Every index of the result array is in the block of the point that owns its row. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := idx_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- The array the call leaves: that function of the arrays it found. -/
theorem final (c : Dev nD) : (dat5 V c).arrAt 2 cfg5.N = LibAffineTiles.squash (A := 100000) (B := 128) (V c main_v50) (V c main_v12) 0x00000000#32 :=
  (dat5 V c).arrAt_eq_of_cover 2 _ (fun t _ => flushed_eq V c t) cover

end Cert.KernelIdeal.Region5

end
-- ==== Proof.ChainC.lean ====
/-
  The idealized kernel's buffer contents at the boundaries of its run, read against the reference's stages: boundaries 9 to 12 (layer 3).
  A buffer that no operation of a host stretch and no window of a pallas call writes keeps its contents; a stretch's result is
  its operations' value of the contents before it; a call's result array is the whole-array function its region module proves,
  which is the reference's stage of the same operands.
-/
import proofs.«178763_j66348654789163_1_alg».proof.Proof.ChainB
import proofs.«178763_j66348654789163_1_alg».proof.Proof.Region4
import proofs.«178763_j66348654789163_1_alg».proof.Proof.Region5

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option quotPrecheck false

local notation "X0" => (m ((c : Thread nD τ).loc main_arg0))
local notation "X1" => (m ((c : Thread nD τ).loc main_arg1))
local notation "X2" => (m ((c : Thread nD τ).loc main_arg2))
local notation "X3" => (m ((c : Thread nD τ).loc main_arg3))
local notation "X4" => (m ((c : Thread nD τ).loc main_arg4))
local notation "X5" => (m ((c : Thread nD τ).loc main_arg5))
local notation "X6" => (m ((c : Thread nD τ).loc main_arg6))
local notation "X7" => (m ((c : Thread nD τ).loc main_arg7))
local notation "X8" => (m ((c : Thread nD τ).loc main_arg8))
local notation "X9" => (m ((c : Thread nD τ).loc main_arg9))
local notation "X10" => (m ((c : Thread nD τ).loc main_arg10))
local notation "X11" => (m ((c : Thread nD τ).loc main_arg11))
local notation "X12" => (m ((c : Thread nD τ).loc main_arg12))
local notation "X13" => (m ((c : Thread nD τ).loc main_arg13))
local notation "X14" => (m ((c : Thread nD τ).loc main_arg14))

/-! ## Boundary 9: after host stretch 4 -/

set_option maxHeartbeats 2000000 in
theorem f_v39_9 : W9 m ρ c (Proc.devRef .tc main_v39) = shapeCast S1x128 X8 shapeCasts_S128_S1x128 := by
  show StableHlo.after hostOps4 (W8 m ρ c) (Proc.devRef .tc main_v39) = _
  after_results_simp
  rw [f_arg8_8 m ρ c]
  all_goals rfl

theorem f_arg7_9 : W9 m ρ c (Proc.devRef .tc main_arg7) = X7 := by
  show StableHlo.after hostOps4 (W8 m ρ c) (Proc.devRef .tc main_arg7) = _
  after_results
  all_goals exact f_arg7_8 m ρ c

theorem f_arg9_9 : W9 m ρ c (Proc.devRef .tc main_arg9) = X9 := by
  show StableHlo.after hostOps4 (W8 m ρ c) (Proc.devRef .tc main_arg9) = _
  after_results
  all_goals exact f_arg9_8 m ρ c

theorem f_arg10_9 : W9 m ρ c (Proc.devRef .tc main_arg10) = X10 := by
  show StableHlo.after hostOps4 (W8 m ρ c) (Proc.devRef .tc main_arg10) = _
  after_results
  all_goals exact f_arg10_8 m ρ c

theorem f_arg2_9 : W9 m ρ c (Proc.devRef .tc main_arg2) = X2 := by
  show StableHlo.after hostOps4 (W8 m ρ c) (Proc.devRef .tc main_arg2) = _
  after_results
  all_goals exact f_arg2_8 m ρ c

theorem f_arg12_9 : W9 m ρ c (Proc.devRef .tc main_arg12) = X12 := by
  show StableHlo.after hostOps4 (W8 m ρ c) (Proc.devRef .tc main_arg12) = _
  after_results
  all_goals exact f_arg12_8 m ρ c

theorem f_arg11_9 : W9 m ρ c (Proc.devRef .tc main_arg11) = X11 := by
  show StableHlo.after hostOps4 (W8 m ρ c) (Proc.devRef .tc main_arg11) = _
  after_results
  all_goals exact f_arg11_8 m ρ c

theorem f_arg14_9 : W9 m ρ c (Proc.devRef .tc main_arg14) = X14 := by
  show StableHlo.after hostOps4 (W8 m ρ c) (Proc.devRef .tc main_arg14) = _
  after_results
  all_goals exact f_arg14_8 m ρ c

theorem f_arg13_9 : W9 m ρ c (Proc.devRef .tc main_arg13) = X13 := by
  show StableHlo.after hostOps4 (W8 m ρ c) (Proc.devRef .tc main_arg13) = _
  after_results
  all_goals exact f_arg13_8 m ρ c

theorem f_v1_9 : W9 m ρ c (Proc.devRef .tc main_v1) = Cert.ReferenceIdeal.Read.val_main_v1 (F := Ideal) X1 := by
  show StableHlo.after hostOps4 (W8 m ρ c) (Proc.devRef .tc main_v1) = _
  after_results
  all_goals exact f_v1_8 m ρ c

theorem f_v3_9 : W9 m ρ c (Proc.devRef .tc main_v3) = Cert.ReferenceIdeal.Read.val_main_v3 (F := Ideal) X1 := by
  show StableHlo.after hostOps4 (W8 m ρ c) (Proc.devRef .tc main_v3) = _
  after_results
  all_goals exact f_v3_8 m ρ c

theorem f_v12_9 : W9 m ρ c (Proc.devRef .tc main_v12) = Cert.ReferenceIdeal.Read.val_main_v12 (F := Ideal) X1 := by
  show StableHlo.after hostOps4 (W8 m ρ c) (Proc.devRef .tc main_v12) = _
  after_results
  all_goals exact f_v12_8 m ρ c

theorem f_v38_9 : W9 m ρ c (Proc.devRef .tc main_v38) = Cert.ReferenceIdeal.Read.val_main_v48 (F := Ideal) X0 X1 X3 X4 X5 X6 := by
  show StableHlo.after hostOps4 (W8 m ρ c) (Proc.devRef .tc main_v38) = _
  after_results
  all_goals exact f_v38_8 m ρ c

/-! ## Boundary 10: after pallas call 4 -/

theorem f_v40_10 : W10 m ρ c (Proc.devRef .tc main_v40) = Cert.ReferenceIdeal.Read.val_main_v52 (F := Ideal) X0 X1 X3 X4 X5 X6 X7 X8 := by
  refine (W10_arr m ρ c 3).trans ((Region4.final (V9 m ρ) c).trans ?_)
  show LibAffineTiles.affine (A := 100000) (K := 128) (B := 128) (W9 m ρ c (Proc.devRef .tc main_v38)) (W9 m ρ c (Proc.devRef .tc main_arg7)) (W9 m ρ c (Proc.devRef .tc main_v39)) = _
  rw [f_v38_9 m ρ c, f_arg7_9 m ρ c, f_v39_9 m ρ c]
  exact (Cert.ReferenceIdeal.Stages.dense3 _ _ _ _ _ _ _ _ _).symm

theorem f_arg9_10 : W10 m ρ c (Proc.devRef .tc main_arg9) = X9 :=
  (W10_of_ne m ρ c main_arg9 (by decide)).trans (f_arg9_9 m ρ c)

theorem f_arg10_10 : W10 m ρ c (Proc.devRef .tc main_arg10) = X10 :=
  (W10_of_ne m ρ c main_arg10 (by decide)).trans (f_arg10_9 m ρ c)

theorem f_arg2_10 : W10 m ρ c (Proc.devRef .tc main_arg2) = X2 :=
  (W10_of_ne m ρ c main_arg2 (by decide)).trans (f_arg2_9 m ρ c)

theorem f_arg12_10 : W10 m ρ c (Proc.devRef .tc main_arg12) = X12 :=
  (W10_of_ne m ρ c main_arg12 (by decide)).trans (f_arg12_9 m ρ c)

theorem f_arg11_10 : W10 m ρ c (Proc.devRef .tc main_arg11) = X11 :=
  (W10_of_ne m ρ c main_arg11 (by decide)).trans (f_arg11_9 m ρ c)

theorem f_arg14_10 : W10 m ρ c (Proc.devRef .tc main_arg14) = X14 :=
  (W10_of_ne m ρ c main_arg14 (by decide)).trans (f_arg14_9 m ρ c)

theorem f_arg13_10 : W10 m ρ c (Proc.devRef .tc main_arg13) = X13 :=
  (W10_of_ne m ρ c main_arg13 (by decide)).trans (f_arg13_9 m ρ c)

theorem f_v1_10 : W10 m ρ c (Proc.devRef .tc main_v1) = Cert.ReferenceIdeal.Read.val_main_v1 (F := Ideal) X1 :=
  (W10_of_ne m ρ c main_v1 (by decide)).trans (f_v1_9 m ρ c)

theorem f_v3_10 : W10 m ρ c (Proc.devRef .tc main_v3) = Cert.ReferenceIdeal.Read.val_main_v3 (F := Ideal) X1 :=
  (W10_of_ne m ρ c main_v3 (by decide)).trans (f_v3_9 m ρ c)

theorem f_v12_10 : W10 m ρ c (Proc.devRef .tc main_v12) = Cert.ReferenceIdeal.Read.val_main_v12 (F := Ideal) X1 :=
  (W10_of_ne m ρ c main_v12 (by decide)).trans (f_v12_9 m ρ c)

/-! ## Boundary 11: after host stretch 5 -/

set_option maxHeartbeats 2000000 in
theorem f_v50_11 : W11 m ρ c (Proc.devRef .tc main_v50) = Cert.ReferenceIdeal.Read.val_main_v62 (F := Ideal) X0 X1 X3 X4 X5 X6 X7 X8 := by
  show StableHlo.after hostOps5 (W10 m ρ c) (Proc.devRef .tc main_v50) = _
  after_results_simp
  rw [f_v40_10 m ρ c, f_v1_10 m ρ c, f_v3_10 m ρ c]
  all_goals rfl

theorem f_arg9_11 : W11 m ρ c (Proc.devRef .tc main_arg9) = X9 := by
  show StableHlo.after hostOps5 (W10 m ρ c) (Proc.devRef .tc main_arg9) = _
  after_results
  all_goals exact f_arg9_10 m ρ c

theorem f_arg10_11 : W11 m ρ c (Proc.devRef .tc main_arg10) = X10 := by
  show StableHlo.after hostOps5 (W10 m ρ c) (Proc.devRef .tc main_arg10) = _
  after_results
  all_goals exact f_arg10_10 m ρ c

theorem f_arg2_11 : W11 m ρ c (Proc.devRef .tc main_arg2) = X2 := by
  show StableHlo.after hostOps5 (W10 m ρ c) (Proc.devRef .tc main_arg2) = _
  after_results
  all_goals exact f_arg2_10 m ρ c

theorem f_arg12_11 : W11 m ρ c (Proc.devRef .tc main_arg12) = X12 := by
  show StableHlo.after hostOps5 (W10 m ρ c) (Proc.devRef .tc main_arg12) = _
  after_results
  all_goals exact f_arg12_10 m ρ c

theorem f_arg11_11 : W11 m ρ c (Proc.devRef .tc main_arg11) = X11 := by
  show StableHlo.after hostOps5 (W10 m ρ c) (Proc.devRef .tc main_arg11) = _
  after_results
  all_goals exact f_arg11_10 m ρ c

theorem f_arg14_11 : W11 m ρ c (Proc.devRef .tc main_arg14) = X14 := by
  show StableHlo.after hostOps5 (W10 m ρ c) (Proc.devRef .tc main_arg14) = _
  after_results
  all_goals exact f_arg14_10 m ρ c

theorem f_arg13_11 : W11 m ρ c (Proc.devRef .tc main_arg13) = X13 := by
  show StableHlo.after hostOps5 (W10 m ρ c) (Proc.devRef .tc main_arg13) = _
  after_results
  all_goals exact f_arg13_10 m ρ c

theorem f_v1_11 : W11 m ρ c (Proc.devRef .tc main_v1) = Cert.ReferenceIdeal.Read.val_main_v1 (F := Ideal) X1 := by
  show StableHlo.after hostOps5 (W10 m ρ c) (Proc.devRef .tc main_v1) = _
  after_results
  all_goals exact f_v1_10 m ρ c

theorem f_v3_11 : W11 m ρ c (Proc.devRef .tc main_v3) = Cert.ReferenceIdeal.Read.val_main_v3 (F := Ideal) X1 := by
  show StableHlo.after hostOps5 (W10 m ρ c) (Proc.devRef .tc main_v3) = _
  after_results
  all_goals exact f_v3_10 m ρ c

theorem f_v12_11 : W11 m ρ c (Proc.devRef .tc main_v12) = Cert.ReferenceIdeal.Read.val_main_v12 (F := Ideal) X1 := by
  show StableHlo.after hostOps5 (W10 m ρ c) (Proc.devRef .tc main_v12) = _
  after_results
  all_goals exact f_v12_10 m ρ c

/-! ## Boundary 12: after pallas call 5 -/

theorem f_v51_12 : W12 m ρ c (Proc.devRef .tc main_v51) = Cert.ReferenceIdeal.Read.val_main_v66 (F := Ideal) X0 X1 X3 X4 X5 X6 X7 X8 := by
  refine (W12_arr m ρ c 2).trans ((Region5.final (V11 m ρ) c).trans ?_)
  show LibAffineTiles.squash (A := 100000) (B := 128) (W11 m ρ c (Proc.devRef .tc main_v50)) (W11 m ρ c (Proc.devRef .tc main_v12)) 0x00000000#32 = _
  rw [f_v50_11 m ρ c, f_v12_11 m ρ c]
  exact (Cert.ReferenceIdeal.Stages.act3 _ _ _ _ _ _ _ _).symm

theorem f_arg9_12 : W12 m ρ c (Proc.devRef .tc main_arg9) = X9 :=
  (W12_of_ne m ρ c main_arg9 (by decide)).trans (f_arg9_11 m ρ c)

theorem f_arg10_12 : W12 m ρ c (Proc.devRef .tc main_arg10) = X10 :=
  (W12_of_ne m ρ c main_arg10 (by decide)).trans (f_arg10_11 m ρ c)

theorem f_arg2_12 : W12 m ρ c (Proc.devRef .tc main_arg2) = X2 :=
  (W12_of_ne m ρ c main_arg2 (by decide)).trans (f_arg2_11 m ρ c)

theorem f_arg12_12 : W12 m ρ c (Proc.devRef .tc main_arg12) = X12 :=
  (W12_of_ne m ρ c main_arg12 (by decide)).trans (f_arg12_11 m ρ c)

theorem f_arg11_12 : W12 m ρ c (Proc.devRef .tc main_arg11) = X11 :=
  (W12_of_ne m ρ c main_arg11 (by decide)).trans (f_arg11_11 m ρ c)

theorem f_arg14_12 : W12 m ρ c (Proc.devRef .tc main_arg14) = X14 :=
  (W12_of_ne m ρ c main_arg14 (by decide)).trans (f_arg14_11 m ρ c)

theorem f_arg13_12 : W12 m ρ c (Proc.devRef .tc main_arg13) = X13 :=
  (W12_of_ne m ρ c main_arg13 (by decide)).trans (f_arg13_11 m ρ c)

theorem f_v1_12 : W12 m ρ c (Proc.devRef .tc main_v1) = Cert.ReferenceIdeal.Read.val_main_v1 (F := Ideal) X1 :=
  (W12_of_ne m ρ c main_v1 (by decide)).trans (f_v1_11 m ρ c)

theorem f_v3_12 : W12 m ρ c (Proc.devRef .tc main_v3) = Cert.ReferenceIdeal.Read.val_main_v3 (F := Ideal) X1 :=
  (W12_of_ne m ρ c main_v3 (by decide)).trans (f_v3_11 m ρ c)

theorem f_v12_12 : W12 m ρ c (Proc.devRef .tc main_v12) = Cert.ReferenceIdeal.Read.val_main_v12 (F := Ideal) X1 :=
  ((W12_arr m ρ c 1).trans (((dat5 (V11 m ρ) c).arrAt_in 1 rfl _).trans (A_eq5 (V11 m ρ) c 1))).trans (f_v12_11 m ρ c)

end Cert.KernelIdeal.Chain

end
-- ==== Proof.Region6.lean ====
/-
  Pallas call 6: a dense layer on tiles of 10000 rows. Each grid point reads rows `t·10000 … t·10000+9999` of the left operand,
  the whole weight matrix and the whole bias row, and writes the same rows of the result. Its tile at `(p, q)` is
  `(∑ k, x (p, k) · W (k, q)) + bias (0, q)`, the whole-array dense layer at row `t·10000 + p`; the 10 tiles cover the
  100000 rows, so the array the call leaves is the dense layer of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the left operand's and the result's row blocks move together, every other
    block index is 0. -/
theorem idx_facts : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 9 :=
  (by decide +kernel : ∀ t : Fin grid6.N, _)

/-- Every row block is some point's. -/
theorem idx_onto : ∀ q0 : Fin 10, ∃ t : Fin cfg6.N, win6_3.index t = ![q0.val, 0] :=
  (by decide +kernel : ∀ q0 : Fin 10, ∃ t : Fin grid6.N, win6_3.index t = ![q0.val, 0])

/-- The tile's value at `(p, q)`. -/
theorem pay (x0 : Vec Ideal S10000x128 .f32) (x1 : Vec Ideal S128x128 .f32) (x2 : Vec Ideal S1x128 .f32) (p : Fin 10000) (q : Fin 128) :
    k6_pay1 (F := Ideal) x0 x1 x2 (ix2 p q) = LibAffineTiles.affineAt x0 x1 x2 p q :=
  LibAffineTiles.tile_cast_apply dot_S10000x128_S128x128_S10000x128_1_0_0_1_n_n rfl rfl rfl rfl (fun _ _ => rfl) (fun _ _ => rfl) x0 x1 x2 p q _ _ _

/-- The left operand's block at point `t`, entry `(p, k)`: the array at row `t·10000 + p`. -/
theorem blk0_apply (c : Dev nD) (t : Fin cfg6.N) (p : Fin 10000) (k : Fin 128) (a : Fin 100000)
    (ha : a.val = win6_3.index t (0 : Fin 2) * 10000 + p.val) :
    iblk6 V c 0 t (ix2 p k) = (V c main_v51 : S100000x128.Idx → EReal) (ix2 a k) := by
  obtain ⟨e0, e1, e2, e3, e4, e5, e6, e7⟩ := idx_facts t
  show (V c main_v51 : _ → EReal) (((cfg6.win 0).blk t).view.emb (ix2 p k)) = _
  refine congrArg _ (funext fun d => Fin.ext ?_)
  match d with
  | ⟨0, _⟩ => show win6_0.index t (0 : Fin 2) * 10000 + 1 * p.val = a.val; omega
  | ⟨1, _⟩ => show win6_0.index t (1 : Fin 2) * 128 + 1 * k.val = k.val; omega

/-- The weight matrix's block is the whole matrix. -/
theorem blk1_apply (c : Dev nD) (t : Fin cfg6.N) (k : Fin 128) (q : Fin 128) :
    iblk6 V c 1 t (ix2 k q) = (V c main_arg9 : S128x128.Idx → EReal) (ix2 k q) := by
  obtain ⟨e0, e1, e2, e3, e4, e5, e6, e7⟩ := idx_facts t
  show (V c main_arg9 : _ → EReal) (((cfg6.win 1).blk t).view.emb (ix2 k q)) = _
  refine congrArg _ (funext fun d => Fin.ext ?_)
  match d with
  | ⟨0, _⟩ => show win6_1.index t (0 : Fin 2) * 128 + 1 * k.val = k.val; omega
  | ⟨1, _⟩ => show win6_1.index t (1 : Fin 2) * 128 + 1 * q.val = q.val; omega

/-- The bias row's block is the whole row. -/
theorem blk2_apply (c : Dev nD) (t : Fin cfg6.N) (z : Fin 1) (q : Fin 128) :
    iblk6 V c 2 t (ix2 z q) = (V c main_v52 : S1x128.Idx → EReal) (ix2 z q) := by
  obtain ⟨e0, e1, e2, e3, e4, e5, e6, e7⟩ := idx_facts t
  show (V c main_v52 : _ → EReal) (((cfg6.win 2).blk t).view.emb (ix2 z q)) = _
  refine congrArg _ (funext fun d => Fin.ext ?_)
  match d with
  | ⟨0, _⟩ => show win6_2.index t (0 : Fin 2) * 1 + 1 * z.val = z.val; omega
  | ⟨1, _⟩ => show win6_2.index t (1 : Fin 2) * 128 + 1 * q.val = q.val; omega

/-- What point `t` writes back is its block of the whole-array dense layer. -/
theorem flushed_eq (c : Dev nD) (t : Fin cfg6.N) :
    (dat6 V c).flushed 3 t = ((cfg6.win 3).blk t).view.read (Elt Ideal)
      (LibAffineTiles.affine (A := 100000) (K := 128) (B := 128) (V c main_v51) (V c main_arg9) (V c main_v52)) := by
  show (cfg6.win 3).cut (grid6.coords t) ((dat6 V c).after 3 t) = _
  rw [after6_3]
  unfold out6_3
  rw [View.canon_unit_zero LibBlockRows.zero_offsets]
  simp only [View.ld_unit_zero (S := S10000x128) LibBlockRows.zero_offsets, View.ld_unit_zero (S := S128x128) LibBlockRows.zero_offsets,
    View.ld_unit_zero (S := S1x128) LibBlockRows.zero_offsets]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have hp : p.val < 10000 := p.isLt
  have hemb : ((cfg6.win 3).blk t).view.emb (ix2 p q)
      = ix2 (⟨win6_3.index t (0 : Fin 2) * 10000 + p.val, by omega⟩ : Fin 100000) q := by
    funext d
    apply Fin.ext
    match d with
    | ⟨0, _⟩ => show win6_3.index t (0 : Fin 2) * 10000 + 1 * p.val = win6_3.index t (0 : Fin 2) * 10000 + p.val; omega
    | ⟨1, _⟩ => show win6_3.index t (1 : Fin 2) * 128 + 1 * q.val = q.val; omega
  show k6_pay1 (F := Ideal) (iblk6 V c 0 t) (iblk6 V c 1 t) (iblk6 V c 2 t) (ix2 p q)
    = (LibAffineTiles.affine (A := 100000) (K := 128) (B := 128) (V c main_v51) (V c main_arg9) (V c main_v52)) (((cfg6.win 3).blk t).view.emb (ix2 p q))
  rw [hemb]
  refine (pay _ _ _ p q).trans ?_
  show LibAffineTiles.affineAt (iblk6 V c 0 t) (iblk6 V c 1 t) (iblk6 V c 2 t) p q = LibAffineTiles.affineAt (V c main_v51) (V c main_arg9) (V c main_v52) _ q
  unfold LibAffineTiles.affineAt
  rw [blk2_apply V c t 0 q]
  refine congrArg (· + _) ?_
  refine Finset.sum_congr rfl fun k _ => ?_
  rw [blk0_apply V c t p k ⟨win6_3.index t (0 : Fin 2) * 10000 + p.val, by omega⟩ rfl, blk1_apply V c t k q]

/-- An index of the result array is in point `t`'s block iff its row is in the block's row range. -/
theorem mem_blk (t : Fin cfg6.N) (i : S100000x128.Idx) :
    i ∈ ((cfg6.win 3).blk t).view.set ↔ ∀ a : Fin 2, win6_3.index t a * S10000x128.size a ≤ (i a).val ∧ (i a).val < win6_3.index t a * S10000x128.size a + S10000x128.size a := by
  show i ∈ ((View.whole main_v53).slice (win6_3.rect t)).set ↔ _
  rw [View.set_slice_whole, Rect.mem_set_unit]
  exact Iff.rfl

/-- Every index of the result array is in the block of the point that owns its row. -/
theorem cover (i : S100000x128.Idx) : ∃ t : Fin cfg6.N, (cfg6.win 3).flush t = true ∧ i ∈ ((cfg6.win 3).blk t).view.set := by
  have hi0 : (i 0).val < 100000 := (i 0).isLt
  have hi1 : (i 1).val < 128 := (i 1).isLt
  obtain ⟨t, ht⟩ := idx_onto ⟨(i 0).val / 10000, by omega⟩
  have q0 : win6_3.index t (0 : Fin 2) = (i 0).val / 10000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 128 ≤ (i 1).val ∧ (i 1).val < win6_3.index t (1 : Fin 2) * 128 + 128; omega

/-- The array the call leaves: the dense layer of the arrays it found. -/
theorem final (c : Dev nD) : (dat6 V c).arrAt 3 cfg6.N = LibAffineTiles.affine (A := 100000) (K := 128) (B := 128) (V c main_v51) (V c main_arg9) (V c main_v52) :=
  (dat6 V c).arrAt_eq_of_cover 3 _ (fun t _ => flushed_eq V c t) cover

end Cert.KernelIdeal.Region6

end
-- ==== Proof.Region7.lean ====
/-
  Pallas call 7: the scaled, clamped hyperbolic tangent on tiles of 10000 rows. Each grid point reads rows
  `t·10000 … t·10000+9999` of the aggregate and of the one-column factor, and writes the same rows of the result:
  `tanh (max (agg (r, q) · factor (r, 0)) 0)` at row `r = t·10000 + p`. The 10 tiles cover the 100000 rows, so the array the
  call leaves is that function of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region7

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the three row blocks move together, every column block index is 0. -/
theorem idx_facts : ∀ t : Fin cfg7.N,
    win7_0.index t (0 : Fin 2) = win7_2.index t (0 : Fin 2) ∧ win7_0.index t (1 : Fin 2) = 0
    ∧ win7_1.index t (0 : Fin 2) = win7_2.index t (0 : Fin 2) ∧ win7_1.index t (1 : Fin 2) = 0
    ∧ win7_2.index t (1 : Fin 2) = 0 ∧ win7_2.index t (0 : Fin 2) ≤ 9 :=
  (by decide +kernel : ∀ t : Fin grid7.N, _)

/-- Every row block is some point's. -/
theorem idx_onto : ∀ q0 : Fin 10, ∃ t : Fin cfg7.N, win7_2.index t = ![q0.val, 0] :=
  (by decide +kernel : ∀ q0 : Fin 10, ∃ t : Fin grid7.N, win7_2.index t = ![q0.val, 0])

/-- The tile's value at `(p, q)`. -/
theorem pay (x0 : Vec Ideal S10000x128 .f32) (x1 : Vec Ideal S10000x1 .f32) (p : Fin 10000) (q : Fin 128) :
    k7_pay1 (F := Ideal) x0 x1 (ix2 p q) = LibAffineTiles.squashAt x0 x1 0x00000000#32 p q :=
  LibAffineTiles.squash_tile_apply x0 x1 0x00000000#32 p q _ _ _

/-- The aggregate's block at point `t`, entry `(p, q)`: the array at row `t·10000 + p`. -/
theorem blk0_apply (c : Dev nD) (t : Fin cfg7.N) (p : Fin 10000) (q : Fin 128) (a : Fin 100000)
    (ha : a.val = win7_2.index t (0 : Fin 2) * 10000 + p.val) :
    iblk7 V c 0 t (ix2 p q) = (V c main_v63 : S100000x128.Idx → EReal) (ix2 a q) := by
  obtain ⟨e0, e1, e2, e3, e4, e5⟩ := idx_facts t
  show (V c main_v63 : _ → EReal) (((cfg7.win 0).blk t).view.emb (ix2 p q)) = _
  refine congrArg _ (funext fun d => Fin.ext ?_)
  match d with
  | ⟨0, _⟩ => show win7_0.index t (0 : Fin 2) * 10000 + 1 * p.val = a.val; omega
  | ⟨1, _⟩ => show win7_0.index t (1 : Fin 2) * 128 + 1 * q.val = q.val; omega

/-- The factor column's block at point `t`, entry `(p, 0)`: the column at row `t·10000 + p`. -/
theorem blk1_apply (c : Dev nD) (t : Fin cfg7.N) (p : Fin 10000) (z : Fin 1) (a : Fin 100000)
    (ha : a.val = win7_2.index t (0 : Fin 2) * 10000 + p.val) :
    iblk7 V c 1 t (ix2 p z) = (V c main_v12 : S100000x1.Idx → EReal) (ix2 a z) := by
  obtain ⟨e0, e1, e2, e3, e4, e5⟩ := idx_facts t
  show (V c main_v12 : _ → EReal) (((cfg7.win 1).blk t).view.emb (ix2 p z)) = _
  refine congrArg _ (funext fun d => Fin.ext ?_)
  match d with
  | ⟨0, _⟩ => show win7_1.index t (0 : Fin 2) * 10000 + 1 * p.val = a.val; omega
  | ⟨1, _⟩ => show win7_1.index t (1 : Fin 2) * 1 + 1 * z.val = z.val; omega

/-- What point `t` writes back is its block of the whole-array function. -/
theorem flushed_eq (c : Dev nD) (t : Fin cfg7.N) :
    (dat7 V c).flushed 2 t = ((cfg7.win 2).blk t).view.read (Elt Ideal)
      (LibAffineTiles.squash (A := 100000) (B := 128) (V c main_v63) (V c main_v12) 0x00000000#32) := by
  show (cfg7.win 2).cut (grid7.coords t) ((dat7 V c).after 2 t) = _
  rw [after7_2]
  unfold out7_2
  rw [View.canon_unit_zero LibBlockRows.zero_offsets]
  simp only [View.ld_unit_zero (S := S10000x128) LibBlockRows.zero_offsets, View.ld_unit_zero (S := S10000x1) LibBlockRows.zero_offsets]
  obtain ⟨e0, e1, e2, e3, e4, e5⟩ := idx_facts t
  funext j
  obtain ⟨p, q, rfl⟩ : ∃ (p : Fin 10000) (q : Fin 128), j = ix2 p q := ⟨j 0, j 1, eq_ix2 j⟩
  have hp : p.val < 10000 := p.isLt
  have hemb : ((cfg7.win 2).blk t).view.emb (ix2 p q)
      = ix2 (⟨win7_2.index t (0 : Fin 2) * 10000 + p.val, by omega⟩ : Fin 100000) q := by
    funext d
    apply Fin.ext
    match d with
    | ⟨0, _⟩ => show win7_2.index t (0 : Fin 2) * 10000 + 1 * p.val = win7_2.index t (0 : Fin 2) * 10000 + p.val; omega
    | ⟨1, _⟩ => show win7_2.index t (1 : Fin 2) * 128 + 1 * q.val = q.val; omega
  show k7_pay1 (F := Ideal) (iblk7 V c 0 t) (iblk7 V c 1 t) (ix2 p q)
    = (LibAffineTiles.squash (A := 100000) (B := 128) (V c main_v63) (V c main_v12) 0x00000000#32) (((cfg7.win 2).blk t).view.emb (ix2 p q))
  rw [hemb]
  refine (pay _ _ p q).trans ?_
  show LibAffineTiles.squashAt (iblk7 V c 0 t) (iblk7 V c 1 t) _ p q = LibAffineTiles.squashAt (V c main_v63) (V c main_v12) _ _ q
  unfold LibAffineTiles.squashAt
  rw [blk0_apply V c t p q ⟨win7_2.index t (0 : Fin 2) * 10000 + p.val, by omega⟩ rfl,
    blk1_apply V c t p 0 ⟨win7_2.index t (0 : Fin 2) * 10000 + p.val, by omega⟩ rfl]

/-- An index of the result array is in point `t`'s block iff its row is in the block's row range. -/
theorem mem_blk (t : Fin cfg7.N) (i : S100000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v64).slice (win7_2.rect t)).set ↔ _
  rw [View.set_slice_whole, Rect.mem_set_unit]
  exact Iff.rfl

/-- Every index of the result array is in the block of the point that owns its row. -/
theorem cover (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  obtain ⟨t, ht⟩ := idx_onto ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 128 ≤ (i 1).val ∧ (i 1).val < win7_2.index t (1 : Fin 2) * 128 + 128; omega

/-- The array the call leaves: that function of the arrays it found. -/
theorem final (c : Dev nD) : (dat7 V c).arrAt 2 cfg7.N = LibAffineTiles.squash (A := 100000) (B := 128) (V c main_v63) (V c main_v12) 0x00000000#32 :=
  (dat7 V c).arrAt_eq_of_cover 2 _ (fun t _ => flushed_eq V c t) cover

end Cert.KernelIdeal.Region7

end
-- ==== Proof.ChainD.lean ====
/-
  The idealized kernel's buffer contents at the boundaries of its run, read against the reference's stages: boundaries 13 to 16 (layer 4).
  A buffer that no operation of a host stretch and no window of a pallas call writes keeps its contents; a stretch's result is
  its operations' value of the contents before it; a call's result array is the whole-array function its region module proves,
  which is the reference's stage of the same operands.
-/
import proofs.«178763_j66348654789163_1_alg».proof.Proof.ChainC
import proofs.«178763_j66348654789163_1_alg».proof.Proof.Region6
import proofs.«178763_j66348654789163_1_alg».proof.Proof.Region7

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option quotPrecheck false

local notation "X0" => (m ((c : Thread nD τ).loc main_arg0))
local notation "X1" => (m ((c : Thread nD τ).loc main_arg1))
local notation "X2" => (m ((c : Thread nD τ).loc main_arg2))
local notation "X3" => (m ((c : Thread nD τ).loc main_arg3))
local notation "X4" => (m ((c : Thread nD τ).loc main_arg4))
local notation "X5" => (m ((c : Thread nD τ).loc main_arg5))
local notation "X6" => (m ((c : Thread nD τ).loc main_arg6))
local notation "X7" => (m ((c : Thread nD τ).loc main_arg7))
local notation "X8" => (m ((c : Thread nD τ).loc main_arg8))
local notation "X9" => (m ((c : Thread nD τ).loc main_arg9))
local notation "X10" => (m ((c : Thread nD τ).loc main_arg10))
local notation "X11" => (m ((c : Thread nD τ).loc main_arg11))
local notation "X12" => (m ((c : Thread nD τ).loc main_arg12))
local notation "X13" => (m ((c : Thread nD τ).loc main_arg13))
local notation "X14" => (m ((c : Thread nD τ).loc main_arg14))

/-! ## Boundary 13: after host stretch 6 -/

set_option maxHeartbeats 2000000 in
theorem f_v52_13 : W13 m ρ c (Proc.devRef .tc main_v52) = shapeCast S1x128 X10 shapeCasts_S128_S1x128 := by
  show StableHlo.after hostOps6 (W12 m ρ c) (Proc.devRef .tc main_v52) = _
  after_results_simp
  rw [f_arg10_12 m ρ c]
  all_goals rfl

theorem f_arg9_13 : W13 m ρ c (Proc.devRef .tc main_arg9) = X9 := by
  show StableHlo.after hostOps6 (W12 m ρ c) (Proc.devRef .tc main_arg9) = _
  after_results
  all_goals exact f_arg9_12 m ρ c

theorem f_arg2_13 : W13 m ρ c (Proc.devRef .tc main_arg2) = X2 := by
  show StableHlo.after hostOps6 (W12 m ρ c) (Proc.devRef .tc main_arg2) = _
  after_results
  all_goals exact f_arg2_12 m ρ c

theorem f_arg12_13 : W13 m ρ c (Proc.devRef .tc main_arg12) = X12 := by
  show StableHlo.after hostOps6 (W12 m ρ c) (Proc.devRef .tc main_arg12) = _
  after_results
  all_goals exact f_arg12_12 m ρ c

theorem f_arg11_13 : W13 m ρ c (Proc.devRef .tc main_arg11) = X11 := by
  show StableHlo.after hostOps6 (W12 m ρ c) (Proc.devRef .tc main_arg11) = _
  after_results
  all_goals exact f_arg11_12 m ρ c

theorem f_arg14_13 : W13 m ρ c (Proc.devRef .tc main_arg14) = X14 := by
  show StableHlo.after hostOps6 (W12 m ρ c) (Proc.devRef .tc main_arg14) = _
  after_results
  all_goals exact f_arg14_12 m ρ c

theorem f_arg13_13 : W13 m ρ c (Proc.devRef .tc main_arg13) = X13 := by
  show StableHlo.after hostOps6 (W12 m ρ c) (Proc.devRef .tc main_arg13) = _
  after_results
  all_goals exact f_arg13_12 m ρ c

theorem f_v1_13 : W13 m ρ c (Proc.devRef .tc main_v1) = Cert.ReferenceIdeal.Read.val_main_v1 (F := Ideal) X1 := by
  show StableHlo.after hostOps6 (W12 m ρ c) (Proc.devRef .tc main_v1) = _
  after_results
  all_goals exact f_v1_12 m ρ c

theorem f_v3_13 : W13 m ρ c (Proc.devRef .tc main_v3) = Cert.ReferenceIdeal.Read.val_main_v3 (F := Ideal) X1 := by
  show StableHlo.after hostOps6 (W12 m ρ c) (Proc.devRef .tc main_v3) = _
  after_results
  all_goals exact f_v3_12 m ρ c

theorem f_v12_13 : W13 m ρ c (Proc.devRef .tc main_v12) = Cert.ReferenceIdeal.Read.val_main_v12 (F := Ideal) X1 := by
  show StableHlo.after hostOps6 (W12 m ρ c) (Proc.devRef .tc main_v12) = _
  after_results
  all_goals exact f_v12_12 m ρ c

theorem f_v51_13 : W13 m ρ c (Proc.devRef .tc main_v51) = Cert.ReferenceIdeal.Read.val_main_v66 (F := Ideal) X0 X1 X3 X4 X5 X6 X7 X8 := by
  show StableHlo.after hostOps6 (W12 m ρ c) (Proc.devRef .tc main_v51) = _
  after_results
  all_goals exact f_v51_12 m ρ c

/-! ## Boundary 14: after pallas call 6 -/

theorem f_v53_14 : W14 m ρ c (Proc.devRef .tc main_v53) = Cert.ReferenceIdeal.Read.val_main_v70 (F := Ideal) X0 X1 X3 X4 X5 X6 X7 X8 X9 X10 := by
  refine (W14_arr m ρ c 3).trans ((Region6.final (V13 m ρ) c).trans ?_)
  show LibAffineTiles.affine (A := 100000) (K := 128) (B := 128) (W13 m ρ c (Proc.devRef .tc main_v51)) (W13 m ρ c (Proc.devRef .tc main_arg9)) (W13 m ρ c (Proc.devRef .tc main_v52)) = _
  rw [f_v51_13 m ρ c, f_arg9_13 m ρ c, f_v52_13 m ρ c]
  exact (Cert.ReferenceIdeal.Stages.dense4 _ _ _ _ _ _ _ _ _ _ _).symm

theorem f_arg2_14 : W14 m ρ c (Proc.devRef .tc main_arg2) = X2 :=
  (W14_of_ne m ρ c main_arg2 (by decide)).trans (f_arg2_13 m ρ c)

theorem f_arg12_14 : W14 m ρ c (Proc.devRef .tc main_arg12) = X12 :=
  (W14_of_ne m ρ c main_arg12 (by decide)).trans (f_arg12_13 m ρ c)

theorem f_arg11_14 : W14 m ρ c (Proc.devRef .tc main_arg11) = X11 :=
  (W14_of_ne m ρ c main_arg11 (by decide)).trans (f_arg11_13 m ρ c)

theorem f_arg14_14 : W14 m ρ c (Proc.devRef .tc main_arg14) = X14 :=
  (W14_of_ne m ρ c main_arg14 (by decide)).trans (f_arg14_13 m ρ c)

theorem f_arg13_14 : W14 m ρ c (Proc.devRef .tc main_arg13) = X13 :=
  (W14_of_ne m ρ c main_arg13 (by decide)).trans (f_arg13_13 m ρ c)

theorem f_v1_14 : W14 m ρ c (Proc.devRef .tc main_v1) = Cert.ReferenceIdeal.Read.val_main_v1 (F := Ideal) X1 :=
  (W14_of_ne m ρ c main_v1 (by decide)).trans (f_v1_13 m ρ c)

theorem f_v3_14 : W14 m ρ c (Proc.devRef .tc main_v3) = Cert.ReferenceIdeal.Read.val_main_v3 (F := Ideal) X1 :=
  (W14_of_ne m ρ c main_v3 (by decide)).trans (f_v3_13 m ρ c)

theorem f_v12_14 : W14 m ρ c (Proc.devRef .tc main_v12) = Cert.ReferenceIdeal.Read.val_main_v12 (F := Ideal) X1 :=
  (W14_of_ne m ρ c main_v12 (by decide)).trans (f_v12_13 m ρ c)

/-! ## Boundary 15: after host stretch 7 -/

set_option maxHeartbeats 2000000 in
theorem f_v63_15 : W15 m ρ c (Proc.devRef .tc main_v63) = Cert.ReferenceIdeal.Read.val_main_v80 (F := Ideal) X0 X1 X3 X4 X5 X6 X7 X8 X9 X10 := by
  show StableHlo.after hostOps7 (W14 m ρ c) (Proc.devRef .tc main_v63) = _
  after_results_simp
  rw [f_v53_14 m ρ c, f_v1_14 m ρ c, f_v3_14 m ρ c]
  all_goals rfl

theorem f_arg2_15 : W15 m ρ c (Proc.devRef .tc main_arg2) = X2 := by
  show StableHlo.after hostOps7 (W14 m ρ c) (Proc.devRef .tc main_arg2) = _
  after_results
  all_goals exact f_arg2_14 m ρ c

theorem f_arg12_15 : W15 m ρ c (Proc.devRef .tc main_arg12) = X12 := by
  show StableHlo.after hostOps7 (W14 m ρ c) (Proc.devRef .tc main_arg12) = _
  after_results
  all_goals exact f_arg12_14 m ρ c

theorem f_arg11_15 : W15 m ρ c (Proc.devRef .tc main_arg11) = X11 := by
  show StableHlo.after hostOps7 (W14 m ρ c) (Proc.devRef .tc main_arg11) = _
  after_results
  all_goals exact f_arg11_14 m ρ c

theorem f_arg14_15 : W15 m ρ c (Proc.devRef .tc main_arg14) = X14 := by
  show StableHlo.after hostOps7 (W14 m ρ c) (Proc.devRef .tc main_arg14) = _
  after_results
  all_goals exact f_arg14_14 m ρ c

theorem f_arg13_15 : W15 m ρ c (Proc.devRef .tc main_arg13) = X13 := by
  show StableHlo.after hostOps7 (W14 m ρ c) (Proc.devRef .tc main_arg13) = _
  after_results
  all_goals exact f_arg13_14 m ρ c

theorem f_v12_15 : W15 m ρ c (Proc.devRef .tc main_v12) = Cert.ReferenceIdeal.Read.val_main_v12 (F := Ideal) X1 := by
  show StableHlo.after hostOps7 (W14 m ρ c) (Proc.devRef .tc main_v12) = _
  after_results
  all_goals exact f_v12_14 m ρ c

/-! ## Boundary 16: after pallas call 7 -/

theorem f_v64_16 : W16 m ρ c (Proc.devRef .tc main_v64) = Cert.ReferenceIdeal.Read.val_main_v84 (F := Ideal) X0 X1 X3 X4 X5 X6 X7 X8 X9 X10 := by
  refine (W16_arr m ρ c 2).trans ((Region7.final (V15 m ρ) c).trans ?_)
  show LibAffineTiles.squash (A := 100000) (B := 128) (W15 m ρ c (Proc.devRef .tc main_v63)) (W15 m ρ c (Proc.devRef .tc main_v12)) 0x00000000#32 = _
  rw [f_v63_15 m ρ c, f_v12_15 m ρ c]
  exact (Cert.ReferenceIdeal.Stages.act4 _ _ _ _ _ _ _ _ _ _).symm

theorem f_arg2_16 : W16 m ρ c (Proc.devRef .tc main_arg2) = X2 :=
  (W16_of_ne m ρ c main_arg2 (by decide)).trans (f_arg2_15 m ρ c)

theorem f_arg12_16 : W16 m ρ c (Proc.devRef .tc main_arg12) = X12 :=
  (W16_of_ne m ρ c main_arg12 (by decide)).trans (f_arg12_15 m ρ c)

theorem f_arg11_16 : W16 m ρ c (Proc.devRef .tc main_arg11) = X11 :=
  (W16_of_ne m ρ c main_arg11 (by decide)).trans (f_arg11_15 m ρ c)

theorem f_arg14_16 : W16 m ρ c (Proc.devRef .tc main_arg14) = X14 :=
  (W16_of_ne m ρ c main_arg14 (by decide)).trans (f_arg14_15 m ρ c)

theorem f_arg13_16 : W16 m ρ c (Proc.devRef .tc main_arg13) = X13 :=
  (W16_of_ne m ρ c main_arg13 (by decide)).trans (f_arg13_15 m ρ c)

end Cert.KernelIdeal.Chain

end
-- ==== Proof.Region8.lean ====
/-
  Pallas call 8: a dense layer on tiles of 512 rows. Each grid point reads rows `t·512 … t·512+511` of the left operand,
  the whole weight matrix and the whole bias row, and writes the same rows of the result. Its tile at `(p, q)` is
  `(∑ k, x (p, k) · W (k, q)) + bias (0, q)` clamped below at 0, the whole-array dense layer at row `t·512 + p`; the 1 tiles cover the
  512 rows, so the array the call leaves is the dense layer of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region8

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the left operand's and the result's row blocks move together, every other
    block index is 0. -/
theorem idx_facts : ∀ t : Fin cfg8.N,
    win8_0.index t (0 : Fin 2) = win8_3.index t (0 : Fin 2) ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 ∧ win8_3.index t (0 : Fin 2) ≤ 0 :=
  (by decide +kernel : ∀ t : Fin grid8.N, _)

/-- Every row block is some point's. -/
theorem idx_onto : ∀ q0 : Fin 1, ∃ t : Fin cfg8.N, win8_3.index t = ![q0.val, 0] :=
  (by decide +kernel : ∀ q0 : Fin 1, ∃ t : Fin grid8.N, win8_3.index t = ![q0.val, 0])

/-- The tile's value at `(p, q)`. -/
theorem pay (x0 : Vec Ideal S512x128 .f32) (x1 : Vec Ideal S128x256 .f32) (x2 : Vec Ideal S1x256 .f32) (p : Fin 512) (q : Fin 256) :
    k8_pay1 (F := Ideal) x0 x1 x2 (ix2 p q) = max (LibAffineTiles.affineAt x0 x1 x2 p q) (Ideal.ofBits .f32 0x00000000#32) :=
  LibAffineTiles.tile_cast_max_apply dot_S512x128_S128x256_S512x256_1_0_0_1_n_n rfl rfl rfl rfl (fun _ _ => rfl) (fun _ _ => rfl) x0 x1 x2 p q 0x00000000#32 _ _ _

/-- The left operand's block at point `t`, entry `(p, k)`: the array at row `t·512 + p`. -/
theorem blk0_apply (c : Dev nD) (t : Fin cfg8.N) (p : Fin 512) (k : Fin 128) (a : Fin 512)
    (ha : a.val = win8_3.index t (0 : Fin 2) * 512 + p.val) :
    iblk8 V c 0 t (ix2 p k) = (V c main_v76 : S512x128.Idx → EReal) (ix2 a k) := by
  obtain ⟨e0, e1, e2, e3, e4, e5, e6, e7⟩ := idx_facts t
  show (V c main_v76 : _ → EReal) (((cfg8.win 0).blk t).view.emb (ix2 p k)) = _
  refine congrArg _ (funext fun d => Fin.ext ?_)
  match d with
  | ⟨0, _⟩ => show win8_0.index t (0 : Fin 2) * 512 + 1 * p.val = a.val; omega
  | ⟨1, _⟩ => show win8_0.index t (1 : Fin 2) * 128 + 1 * k.val = k.val; omega

/-- The weight matrix's block is the whole matrix. -/
theorem blk1_apply (c : Dev nD) (t : Fin cfg8.N) (k : Fin 128) (q : Fin 256) :
    iblk8 V c 1 t (ix2 k q) = (V c main_arg11 : S128x256.Idx → EReal) (ix2 k q) := by
  obtain ⟨e0, e1, e2, e3, e4, e5, e6, e7⟩ := idx_facts t
  show (V c main_arg11 : _ → EReal) (((cfg8.win 1).blk t).view.emb (ix2 k q)) = _
  refine congrArg _ (funext fun d => Fin.ext ?_)
  match d with
  | ⟨0, _⟩ => show win8_1.index t (0 : Fin 2) * 128 + 1 * k.val = k.val; omega
  | ⟨1, _⟩ => show win8_1.index t (1 : Fin 2) * 256 + 1 * q.val = q.val; omega

/-- The bias row's block is the whole row. -/
theorem blk2_apply (c : Dev nD) (t : Fin cfg8.N) (z : Fin 1) (q : Fin 256) :
    iblk8 V c 2 t (ix2 z q) = (V c main_v77 : S1x256.Idx → EReal) (ix2 z q) := by
  obtain ⟨e0, e1, e2, e3, e4, e5, e6, e7⟩ := idx_facts t
  show (V c main_v77 : _ → EReal) (((cfg8.win 2).blk t).view.emb (ix2 z q)) = _
  refine congrArg _ (funext fun d => Fin.ext ?_)
  match d with
  | ⟨0, _⟩ => show win8_2.index t (0 : Fin 2) * 1 + 1 * z.val = z.val; omega
  | ⟨1, _⟩ => show win8_2.index t (1 : Fin 2) * 256 + 1 * q.val = q.val; omega

/-- What point `t` writes back is its block of the whole-array dense layer. -/
theorem flushed_eq (c : Dev nD) (t : Fin cfg8.N) :
    (dat8 V c).flushed 3 t = ((cfg8.win 3).blk t).view.read (Elt Ideal)
      (LibAffineTiles.affineMax (A := 512) (K := 128) (B := 256) (V c main_v76) (V c main_arg11) (V c main_v77) 0x00000000#32) := by
  show (cfg8.win 3).cut (grid8.coords t) ((dat8 V c).after 3 t) = _
  rw [after8_3]
  unfold out8_3
  rw [View.canon_unit_zero LibBlockRows.zero_offsets]
  simp only [View.ld_unit_zero (S := S512x128) LibBlockRows.zero_offsets, View.ld_unit_zero (S := S128x256) LibBlockRows.zero_offsets,
    View.ld_unit_zero (S := S1x256) LibBlockRows.zero_offsets]
  obtain ⟨e0, e1, e2, e3, e4, e5, e6, e7⟩ := idx_facts t
  funext j
  obtain ⟨p, q, rfl⟩ : ∃ (p : Fin 512) (q : Fin 256), j = ix2 p q := ⟨j 0, j 1, eq_ix2 j⟩
  have hp : p.val < 512 := p.isLt
  have hemb : ((cfg8.win 3).blk t).view.emb (ix2 p q)
      = ix2 (⟨win8_3.index t (0 : Fin 2) * 512 + p.val, by omega⟩ : Fin 512) q := by
    funext d
    apply Fin.ext
    match d with
    | ⟨0, _⟩ => show win8_3.index t (0 : Fin 2) * 512 + 1 * p.val = win8_3.index t (0 : Fin 2) * 512 + p.val; omega
    | ⟨1, _⟩ => show win8_3.index t (1 : Fin 2) * 256 + 1 * q.val = q.val; omega
  show k8_pay1 (F := Ideal) (iblk8 V c 0 t) (iblk8 V c 1 t) (iblk8 V c 2 t) (ix2 p q)
    = (LibAffineTiles.affineMax (A := 512) (K := 128) (B := 256) (V c main_v76) (V c main_arg11) (V c main_v77) 0x00000000#32) (((cfg8.win 3).blk t).view.emb (ix2 p q))
  rw [hemb]
  refine (pay _ _ _ p q).trans ?_
  show max (LibAffineTiles.affineAt (iblk8 V c 0 t) (iblk8 V c 1 t) (iblk8 V c 2 t) p q) _ = max (LibAffineTiles.affineAt (V c main_v76) (V c main_arg11) (V c main_v77) _ q) _
  unfold LibAffineTiles.affineAt
  rw [blk2_apply V c t 0 q]
  refine congrArg (fun s => max (s + _) _) ?_
  refine Finset.sum_congr rfl fun k _ => ?_
  rw [blk0_apply V c t p k ⟨win8_3.index t (0 : Fin 2) * 512 + p.val, by omega⟩ rfl, blk1_apply V c t k q]

/-- An index of the result array is in point `t`'s block iff its row is in the block's row range. -/
theorem mem_blk (t : Fin cfg8.N) (i : S512x256.Idx) :
    i ∈ ((cfg8.win 3).blk t).view.set ↔ ∀ a : Fin 2, win8_3.index t a * S512x256.size a ≤ (i a).val ∧ (i a).val < win8_3.index t a * S512x256.size a + S512x256.size a := by
  show i ∈ ((View.whole main_v78).slice (win8_3.rect t)).set ↔ _
  rw [View.set_slice_whole, Rect.mem_set_unit]
  exact Iff.rfl

/-- Every index of the result array is in the block of the point that owns its row. -/
theorem cover (i : S512x256.Idx) : ∃ t : Fin cfg8.N, (cfg8.win 3).flush t = true ∧ i ∈ ((cfg8.win 3).blk t).view.set := by
  have hi0 : (i 0).val < 512 := (i 0).isLt
  have hi1 : (i 1).val < 256 := (i 1).isLt
  obtain ⟨t, ht⟩ := idx_onto ⟨(i 0).val / 512, by omega⟩
  have q0 : win8_3.index t (0 : Fin 2) = (i 0).val / 512 := congrFun ht 0
  have q1 : win8_3.index t (1 : Fin 2) = 0 := congrFun ht 1
  refine ⟨t, flush8_3 t, ?_⟩
  rw [mem_blk]
  intro a
  match a with
  | ⟨0, _⟩ => show win8_3.index t (0 : Fin 2) * 512 ≤ (i 0).val ∧ (i 0).val < win8_3.index t (0 : Fin 2) * 512 + 512; omega
  | ⟨1, _⟩ => show win8_3.index t (1 : Fin 2) * 256 ≤ (i 1).val ∧ (i 1).val < win8_3.index t (1 : Fin 2) * 256 + 256; omega

/-- The array the call leaves: the dense layer of the arrays it found. -/
theorem final (c : Dev nD) : (dat8 V c).arrAt 3 cfg8.N = LibAffineTiles.affineMax (A := 512) (K := 128) (B := 256) (V c main_v76) (V c main_arg11) (V c main_v77) 0x00000000#32 :=
  (dat8 V c).arrAt_eq_of_cover 3 _ (fun t _ => flushed_eq V c t) cover

end Cert.KernelIdeal.Region8

end
-- ==== Proof.Region9.lean ====
/-
  Pallas call 9: a dense layer on tiles of 512 rows. Each grid point reads rows `t·512 … t·512+511` of the left operand,
  the whole weight matrix and the whole bias row, and writes the same rows of the result. Its tile at `(p, q)` is
  `(∑ k, x (p, k) · W (k, q)) + bias (0, q)`, the whole-array dense layer at row `t·512 + p`; the 1 tiles cover the
  512 rows, so the array the call leaves is the dense layer of the arrays it found.
-/
import proofs.«178763_j66348654789163_1_alg».proof.Proof.Gen.KernelIdeal.Frame
import proofs.«178763_j66348654789163_1_alg».proof.Proof.LibAffineTiles
import Idealize.ShloMosaic.Lib.Pipeline.Value
import Idealize.ShloMosaic.Lib.ValueIdx

set_option maxRecDepth 16384

noncomputable section

namespace Cert.KernelIdeal.Region9

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the left operand's and the result's row blocks move together, every other
    block index is 0. -/
theorem idx_facts : ∀ t : Fin cfg9.N,
    win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (1 : Fin 2) = 0 ∧ win9_3.index t (0 : Fin 2) ≤ 0 :=
  (by decide +kernel : ∀ t : Fin grid9.N, _)

/-- Every row block is some point's. -/
theorem idx_onto : ∀ q0 : Fin 1, ∃ t : Fin cfg9.N, win9_3.index t = ![q0.val, 0] :=
  (by decide +kernel : ∀ q0 : Fin 1, ∃ t : Fin grid9.N, win9_3.index t = ![q0.val, 0])

/-- The tile's value at `(p, q)`. -/
theorem pay (x0 : Vec Ideal S512x256 .f32) (x1 : Vec Ideal S256x12 .f32) (x2 : Vec Ideal S1x12 .f32) (p : Fin 512) (q : Fin 12) :
    k9_pay1 (F := Ideal) x0 x1 x2 (ix2 p q) = LibAffineTiles.affineAt x0 x1 x2 p q :=
  LibAffineTiles.tile_cast_apply dot_S512x256_S256x12_S512x12_1_0_0_1_n_n rfl rfl rfl rfl (fun _ _ => rfl) (fun _ _ => rfl) x0 x1 x2 p q _ _ _

/-- The left operand's block at point `t`, entry `(p, k)`: the array at row `t·512 + p`. -/
theorem blk0_apply (c : Dev nD) (t : Fin cfg9.N) (p : Fin 512) (k : Fin 256) (a : Fin 512)
    (ha : a.val = win9_3.index t (0 : Fin 2) * 512 + p.val) :
    iblk9 V c 0 t (ix2 p k) = (V c main_v78 : S512x256.Idx → EReal) (ix2 a k) := by
  obtain ⟨e0, e1, e2, e3, e4, e5, e6, e7⟩ := idx_facts t
  show (V c main_v78 : _ → EReal) (((cfg9.win 0).blk t).view.emb (ix2 p k)) = _
  refine congrArg _ (funext fun d => Fin.ext ?_)
  match d with
  | ⟨0, _⟩ => show win9_0.index t (0 : Fin 2) * 512 + 1 * p.val = a.val; omega
  | ⟨1, _⟩ => show win9_0.index t (1 : Fin 2) * 256 + 1 * k.val = k.val; omega

/-- The weight matrix's block is the whole matrix. -/
theorem blk1_apply (c : Dev nD) (t : Fin cfg9.N) (k : Fin 256) (q : Fin 12) :
    iblk9 V c 1 t (ix2 k q) = (V c main_arg13 : S256x12.Idx → EReal) (ix2 k q) := by
  obtain ⟨e0, e1, e2, e3, e4, e5, e6, e7⟩ := idx_facts t
  show (V c main_arg13 : _ → EReal) (((cfg9.win 1).blk t).view.emb (ix2 k q)) = _
  refine congrArg _ (funext fun d => Fin.ext ?_)
  match d with
  | ⟨0, _⟩ => show win9_1.index t (0 : Fin 2) * 256 + 1 * k.val = k.val; omega
  | ⟨1, _⟩ => show win9_1.index t (1 : Fin 2) * 12 + 1 * q.val = q.val; omega

/-- The bias row's block is the whole row. -/
theorem blk2_apply (c : Dev nD) (t : Fin cfg9.N) (z : Fin 1) (q : Fin 12) :
    iblk9 V c 2 t (ix2 z q) = (V c main_v79 : S1x12.Idx → EReal) (ix2 z q) := by
  obtain ⟨e0, e1, e2, e3, e4, e5, e6, e7⟩ := idx_facts t
  show (V c main_v79 : _ → EReal) (((cfg9.win 2).blk t).view.emb (ix2 z q)) = _
  refine congrArg _ (funext fun d => Fin.ext ?_)
  match d with
  | ⟨0, _⟩ => show win9_2.index t (0 : Fin 2) * 1 + 1 * z.val = z.val; omega
  | ⟨1, _⟩ => show win9_2.index t (1 : Fin 2) * 12 + 1 * q.val = q.val; omega

/-- What point `t` writes back is its block of the whole-array dense layer. -/
theorem flushed_eq (c : Dev nD) (t : Fin cfg9.N) :
    (dat9 V c).flushed 3 t = ((cfg9.win 3).blk t).view.read (Elt Ideal)
      (LibAffineTiles.affine (A := 512) (K := 256) (B := 12) (V c main_v78) (V c main_arg13) (V c main_v79)) := by
  show (cfg9.win 3).cut (grid9.coords t) ((dat9 V c).after 3 t) = _
  rw [after9_3]
  unfold out9_3
  rw [View.canon_unit_zero LibBlockRows.zero_offsets]
  simp only [View.ld_unit_zero (S := S512x256) LibBlockRows.zero_offsets, View.ld_unit_zero (S := S256x12) LibBlockRows.zero_offsets,
    View.ld_unit_zero (S := S1x12) LibBlockRows.zero_offsets]
  obtain ⟨e0, e1, e2, e3, e4, e5, e6, e7⟩ := idx_facts t
  funext j
  obtain ⟨p, q, rfl⟩ : ∃ (p : Fin 512) (q : Fin 12), j = ix2 p q := ⟨j 0, j 1, eq_ix2 j⟩
  have hp : p.val < 512 := p.isLt
  have hemb : ((cfg9.win 3).blk t).view.emb (ix2 p q)
      = ix2 (⟨win9_3.index t (0 : Fin 2) * 512 + p.val, by omega⟩ : Fin 512) q := by
    funext d
    apply Fin.ext
    match d with
    | ⟨0, _⟩ => show win9_3.index t (0 : Fin 2) * 512 + 1 * p.val = win9_3.index t (0 : Fin 2) * 512 + p.val; omega
    | ⟨1, _⟩ => show win9_3.index t (1 : Fin 2) * 12 + 1 * q.val = q.val; omega
  show k9_pay1 (F := Ideal) (iblk9 V c 0 t) (iblk9 V c 1 t) (iblk9 V c 2 t) (ix2 p q)
    = (LibAffineTiles.affine (A := 512) (K := 256) (B := 12) (V c main_v78) (V c main_arg13) (V c main_v79)) (((cfg9.win 3).blk t).view.emb (ix2 p q))
  rw [hemb]
  refine (pay _ _ _ p q).trans ?_
  show LibAffineTiles.affineAt (iblk9 V c 0 t) (iblk9 V c 1 t) (iblk9 V c 2 t) p q = LibAffineTiles.affineAt (V c main_v78) (V c main_arg13) (V c main_v79) _ q
  unfold LibAffineTiles.affineAt
  rw [blk2_apply V c t 0 q]
  refine congrArg (· + _) ?_
  refine Finset.sum_congr rfl fun k _ => ?_
  rw [blk0_apply V c t p k ⟨win9_3.index t (0 : Fin 2) * 512 + p.val, by omega⟩ rfl, blk1_apply V c t k q]

/-- An index of the result array is in point `t`'s block iff its row is in the block's row range. -/
theorem mem_blk (t : Fin cfg9.N) (i : S512x12.Idx) :
    i ∈ ((cfg9.win 3).blk t).view.set ↔ ∀ a : Fin 2, win9_3.index t a * S512x12.size a ≤ (i a).val ∧ (i a).val < win9_3.index t a * S512x12.size a + S512x12.size a := by
  show i ∈ ((View.whole main_v80).slice (win9_3.rect t)).set ↔ _
  rw [View.set_slice_whole, Rect.mem_set_unit]
  exact Iff.rfl

/-- Every index of the result array is in the block of the point that owns its row. -/
theorem cover (i : S512x12.Idx) : ∃ t : Fin cfg9.N, (cfg9.win 3).flush t = true ∧ i ∈ ((cfg9.win 3).blk t).view.set := by
  have hi0 : (i 0).val < 512 := (i 0).isLt
  have hi1 : (i 1).val < 12 := (i 1).isLt
  obtain ⟨t, ht⟩ := idx_onto ⟨(i 0).val / 512, by omega⟩
  have q0 : win9_3.index t (0 : Fin 2) = (i 0).val / 512 := congrFun ht 0
  have q1 : win9_3.index t (1 : Fin 2) = 0 := congrFun ht 1
  refine ⟨t, flush9_3 t, ?_⟩
  rw [mem_blk]
  intro a
  match a with
  | ⟨0, _⟩ => show win9_3.index t (0 : Fin 2) * 512 ≤ (i 0).val ∧ (i 0).val < win9_3.index t (0 : Fin 2) * 512 + 512; omega
  | ⟨1, _⟩ => show win9_3.index t (1 : Fin 2) * 12 ≤ (i 1).val ∧ (i 1).val < win9_3.index t (1 : Fin 2) * 12 + 12; omega

/-- The array the call leaves: the dense layer of the arrays it found. -/
theorem final (c : Dev nD) : (dat9 V c).arrAt 3 cfg9.N = LibAffineTiles.affine (A := 512) (K := 256) (B := 12) (V c main_v78) (V c main_arg13) (V c main_v79) :=
  (dat9 V c).arrAt_eq_of_cover 3 _ (fun t _ => flushed_eq V c t) cover

end Cert.KernelIdeal.Region9

end
-- ==== Proof.ChainE.lean ====
/-
  The idealized kernel's buffer contents at the boundaries of its run, read against the reference's stages: boundaries 17 to 20 (the pooling and the two-layer head).
  A buffer that no operation of a host stretch and no window of a pallas call writes keeps its contents; a stretch's result is
  its operations' value of the contents before it; a call's result array is the whole-array function its region module proves,
  which is the reference's stage of the same operands.
-/
import proofs.«178763_j66348654789163_1_alg».proof.Proof.ChainD
import proofs.«178763_j66348654789163_1_alg».proof.Proof.Region8
import proofs.«178763_j66348654789163_1_alg».proof.Proof.Region9

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

set_option quotPrecheck false

local notation "X0" => (m ((c : Thread nD τ).loc main_arg0))
local notation "X1" => (m ((c : Thread nD τ).loc main_arg1))
local notation "X2" => (m ((c : Thread nD τ).loc main_arg2))
local notation "X3" => (m ((c : Thread nD τ).loc main_arg3))
local notation "X4" => (m ((c : Thread nD τ).loc main_arg4))
local notation "X5" => (m ((c : Thread nD τ).loc main_arg5))
local notation "X6" => (m ((c : Thread nD τ).loc main_arg6))
local notation "X7" => (m ((c : Thread nD τ).loc main_arg7))
local notation "X8" => (m ((c : Thread nD τ).loc main_arg8))
local notation "X9" => (m ((c : Thread nD τ).loc main_arg9))
local notation "X10" => (m ((c : Thread nD τ).loc main_arg10))
local notation "X11" => (m ((c : Thread nD τ).loc main_arg11))
local notation "X12" => (m ((c : Thread nD τ).loc main_arg12))
local notation "X13" => (m ((c : Thread nD τ).loc main_arg13))
local notation "X14" => (m ((c : Thread nD τ).loc main_arg14))

/-! ## Boundary 17: after host stretch 8 -/

set_option maxHeartbeats 2000000 in
theorem f_v76_17 : W17 m ρ c (Proc.devRef .tc main_v76) = Cert.ReferenceIdeal.Read.val_main_v96 (F := Ideal) X0 X1 X2 X3 X4 X5 X6 X7 X8 X9 X10 := by
  show StableHlo.after hostOps8 (W16 m ρ c) (Proc.devRef .tc main_v76) = _
  after_results_simp
  rw [f_v64_16 m ρ c, f_arg2_16 m ρ c]
  all_goals rfl

set_option maxHeartbeats 2000000 in
theorem f_v77_17 : W17 m ρ c (Proc.devRef .tc main_v77) = shapeCast S1x256 X12 shapeCasts_S256_S1x256 := by
  show StableHlo.after hostOps8 (W16 m ρ c) (Proc.devRef .tc main_v77) = _
  after_results_simp
  rw [f_arg12_16 m ρ c]
  all_goals rfl

theorem f_arg11_17 : W17 m ρ c (Proc.devRef .tc main_arg11) = X11 := by
  show StableHlo.after hostOps8 (W16 m ρ c) (Proc.devRef .tc main_arg11) = _
  after_results
  all_goals exact f_arg11_16 m ρ c

theorem f_arg14_17 : W17 m ρ c (Proc.devRef .tc main_arg14) = X14 := by
  show StableHlo.after hostOps8 (W16 m ρ c) (Proc.devRef .tc main_arg14) = _
  after_results
  all_goals exact f_arg14_16 m ρ c

theorem f_arg13_17 : W17 m ρ c (Proc.devRef .tc main_arg13) = X13 := by
  show StableHlo.after hostOps8 (W16 m ρ c) (Proc.devRef .tc main_arg13) = _
  after_results
  all_goals exact f_arg13_16 m ρ c

/-! ## Boundary 18: after pallas call 8 -/

theorem f_v78_18 : W18 m ρ c (Proc.devRef .tc main_v78) = Cert.ReferenceIdeal.Read.val_main_v101 (F := Ideal) X0 X1 X2 X3 X4 X5 X6 X7 X8 X9 X10 X11 X12 := by
  refine (W18_arr m ρ c 3).trans ((Region8.final (V17 m ρ) c).trans ?_)
  show LibAffineTiles.affineMax (A := 512) (K := 128) (B := 256) (W17 m ρ c (Proc.devRef .tc main_v76)) (W17 m ρ c (Proc.devRef .tc main_arg11)) (W17 m ρ c (Proc.devRef .tc main_v77)) 0x00000000#32 = _
  rw [f_v76_17 m ρ c, f_arg11_17 m ρ c, f_v77_17 m ρ c]
  exact (Cert.ReferenceIdeal.Stages.head1 _ _ _ _ _ _ _ _ _ _ _ _ _ _).symm

theorem f_arg14_18 : W18 m ρ c (Proc.devRef .tc main_arg14) = X14 :=
  (W18_of_ne m ρ c main_arg14 (by decide)).trans (f_arg14_17 m ρ c)

theorem f_arg13_18 : W18 m ρ c (Proc.devRef .tc main_arg13) = X13 :=
  (W18_of_ne m ρ c main_arg13 (by decide)).trans (f_arg13_17 m ρ c)

/-! ## Boundary 19: after host stretch 9 -/

set_option maxHeartbeats 2000000 in
theorem f_v79_19 : W19 m ρ c (Proc.devRef .tc main_v79) = shapeCast S1x12 X14 shapeCasts_S12_S1x12 := by
  show StableHlo.after hostOps9 (W18 m ρ c) (Proc.devRef .tc main_v79) = _
  after_results_simp
  rw [f_arg14_18 m ρ c]
  all_goals rfl

theorem f_arg13_19 : W19 m ρ c (Proc.devRef .tc main_arg13) = X13 := by
  show StableHlo.after hostOps9 (W18 m ρ c) (Proc.devRef .tc main_arg13) = _
  after_results
  all_goals exact f_arg13_18 m ρ c

theorem f_v78_19 : W19 m ρ c (Proc.devRef .tc main_v78) = Cert.ReferenceIdeal.Read.val_main_v101 (F := Ideal) X0 X1 X2 X3 X4 X5 X6 X7 X8 X9 X10 X11 X12 := by
  show StableHlo.after hostOps9 (W18 m ρ c) (Proc.devRef .tc main_v78) = _
  after_results
  all_goals exact f_v78_18 m ρ c

/-! ## Boundary 20: after pallas call 9 -/

theorem f_v80_20 : W20 m ρ c (Proc.devRef .tc main_v80) = Cert.ReferenceIdeal.Read.val_main_v105 (F := Ideal) X0 X1 X2 X3 X4 X5 X6 X7 X8 X9 X10 X11 X12 X13 X14 := by
  refine (W20_arr m ρ c 3).trans ((Region9.final (V19 m ρ) c).trans ?_)
  show LibAffineTiles.affine (A := 512) (K := 256) (B := 12) (W19 m ρ c (Proc.devRef .tc main_v78)) (W19 m ρ c (Proc.devRef .tc main_arg13)) (W19 m ρ c (Proc.devRef .tc main_v79)) = _
  rw [f_v78_19 m ρ c, f_arg13_19 m ρ c, f_v79_19 m ρ c]
  exact (Cert.ReferenceIdeal.Stages.head2 _ _ _ _ _ _ _ _ _ _ _ _ _ _ _ _).symm

end Cert.KernelIdeal.Chain

end
-- ==== Proof.lean ====
/-
  The idealized kernel and the idealized reference compute one function of the arguments over the extended reals.

  Both programs are a graph network of four message-passing layers and a two-layer head. In each layer the kernel computes
  the dense map `h · W + b` in a pallas call on tiles of 10000 node rows (a matrix product into a zero accumulator plus the
  bias row over the tile's rows), gathers the result at the source nodes and scatter-adds it at the destination nodes on the
  host, and applies `tanh (max (agg · inv_deg) 0)` in a second pallas call on the same tiles; the reference does the same with
  the host's matrix product and elementwise operations. The head's two dense layers are one-tile pallas calls in the kernel
  and host products in the reference. A tile's product and the whole product are the same finite sum over the contracted
  coordinate, entry by entry, and the elementwise stages agree entry by entry, so no finiteness of the inputs is used: the
  precondition is never opened. The gathers, scatter-adds, degree counts and pooling are the same host operations in both
  programs and are carried as they stand.

  The kernel's result is read off its run boundary by boundary (twenty boundaries: ten host stretches and ten pallas calls),
  each buffer's contents identified with the reference's stage of the same arguments; the reference's result is its generated
  run's term. The three frames are the generated ones; the idealization rewrote nothing, so `preserves` is trivial.
-/
import proofs.«178763_j66348654789163_1_alg».proof.Defs
import proofs.«178763_j66348654789163_1_alg».proof.Proof.Gen.Kernel
import proofs.«178763_j66348654789163_1_alg».proof.Proof.Gen.Kernel.Frame
import proofs.«178763_j66348654789163_1_alg».proof.Proof.Gen.KernelIdeal
import proofs.«178763_j66348654789163_1_alg».proof.Proof.Gen.KernelIdeal.Frame
import proofs.«178763_j66348654789163_1_alg».proof.Proof.Gen.ReferenceIdeal
import proofs.«178763_j66348654789163_1_alg».proof.Proof.Gen.Pre_finite_inputs
import proofs.«178763_j66348654789163_1_alg».proof.Proof.Gen.ReferenceIdeal.Run
import proofs.«178763_j66348654789163_1_alg».proof.Proof.Gen.ReferenceIdeal.Read
import proofs.«178763_j66348654789163_1_alg».proof.Proof.RunNamed
import proofs.«178763_j66348654789163_1_alg».proof.Proof.ChainE
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the kernel's arguments: the kernel's by the chain of
    boundaries, the reference's by its run, the arguments' agreement rewritten. -/
theorem algebraic : Cert.algebraic_KernelIdeal_ReferenceIdeal := by
  intro m ρ m' ρ' _ hagree
  refine ⟨fun c => Cert.ReferenceIdeal.Read.val_main_v105 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.f_v80_20 m ρ c), (h c).2⟩)
      (Cert.KernelIdeal.RunNamed.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v105_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
